-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x200x176 : Shape := ⟨4, ![8, 384, 200, 176]⟩
abbrev S384x2 : Shape := ⟨2, ![384, 2]⟩
abbrev S2 : Shape := ⟨1, ![2]⟩
abbrev S384x14 : Shape := ⟨2, ![384, 14]⟩
abbrev S14 : Shape := ⟨1, ![14]⟩
abbrev S384x4 : Shape := ⟨2, ![384, 4]⟩
abbrev S4 : Shape := ⟨1, ![4]⟩
abbrev S_ : Shape := ⟨0, ![]⟩

class Facts : Prop where
  bcast_S_S8x384x200x176 : S_.BroadcastsInDim S8x384x200x176 (![] : Fin 0 → Fin S8x384x200x176.rank)
  reducesTo_S8x384x200x176_S_d0_1_2_3 : S8x384x200x176.ReducesTo [0, 1, 2, 3] S_
  h_S_ : 0 < S_.numel
  bcast_S_S384x2 : S_.BroadcastsInDim S384x2 (![] : Fin 0 → Fin S384x2.rank)
  reducesTo_S384x2_S_d0_1 : S384x2.ReducesTo [0, 1] S_
  bcast_S_S2 : S_.BroadcastsInDim S2 (![] : Fin 0 → Fin S2.rank)
  reducesTo_S2_S_d0 : S2.ReducesTo [0] S_
  bcast_S_S384x14 : S_.BroadcastsInDim S384x14 (![] : Fin 0 → Fin S384x14.rank)
  reducesTo_S384x14_S_d0_1 : S384x14.ReducesTo [0, 1] S_
  bcast_S_S14 : S_.BroadcastsInDim S14 (![] : Fin 0 → Fin S14.rank)
  reducesTo_S14_S_d0 : S14.ReducesTo [0] S_
  bcast_S_S384x4 : S_.BroadcastsInDim S384x4 (![] : Fin 0 → Fin S384x4.rank)
  reducesTo_S384x4_S_d0_1 : S384x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S14 .f32) (main_arg5 : FVec F S384x4 .f32) (main_arg6 : FVec F S4 .f32) (main_v13 : IVec S_ 1) (main_v16 : IVec S384x14 1) : IVec S_ 1 :=
  let main_c_5 : IVec S_ 1 := constantI S_ 1 1#1
  let main_v17 : IVec S_ 1 := (fun x v => Host.reduce IntOp.andi x v reducesTo_S384x14_S_d0_1 h_S_) main_v16 main_c_5
  let main_v18 : IVec S_ 1 := andi main_v13 main_v17
  let main_v19 : FVec F S14 .f32 := Host.absf main_arg4
  let main_cst_6 : FVec F S_ .f32 := constant S_ .f32 0x7F800000#32
  let main_v20 : FVec F S14 .f32 := broadcastInDim S14 ![] bcast_S_S14 main_cst_6
  let main_v21 : IVec S14 1 := cmpf .olt main_v19 main_v20
  let main_c_7 : IVec S_ 1 := constantI S_ 1 1#1
  let main_v22 : IVec S_ 1 := (fun x v => Host.reduce IntOp.andi x v reducesTo_S14_S_d0 h_S_) main_v21 main_c_7
  let main_v23 : IVec S_ 1 := andi main_v18 main_v22
  let main_v24 : FVec F S384x4 .f32 := Host.absf main_arg5
  let main_cst_8 : FVec F S_ .f32 := constant S_ .f32 0x7F800000#32
  let main_v25 : FVec F S384x4 .f32 := broadcastInDim S384x4 ![] bcast_S_S384x4 main_cst_8
  let main_v26 : IVec S384x4 1 := cmpf .olt main_v24 main_v25
  let main_c_9 : IVec S_ 1 := constantI S_ 1 1#1
  let main_v27 : IVec S_ 1 := (fun x v => Host.reduce IntOp.andi x v reducesTo_S384x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S8x384x200x176 .f32) (main_arg1 : FVec F S384x2 .f32) (main_arg2 : FVec F S2 .f32) (main_arg3 : FVec F S384x14 .f32) (main_arg4 : FVec F S14 .f32) (main_arg5 : FVec F S384x4 .f32) (main_arg6 : FVec F S4 .f32) : IVec S_ 1 :=
  let main_v0 : FVec F S8x384x200x176 .f32 := Host.absf main_arg0
  let main_cst : FVec F S_ .f32 := constant S_ .f32 0x7F800000#32
  let main_v1 : FVec F S8x384x200x176 .f32 := broadcastInDim S8x384x200x176 ![] bcast_S_S8x384x200x176 main_cst
  let main_v2 : IVec S8x384x200x176 1 := cmpf .olt main_v0 main_v1
  let main_c : IVec S_ 1 := constantI S_ 1 1#1
  let main_v3 : IVec S_ 1 := (fun x v => Host.reduce IntOp.andi x v reducesTo_S8x384x200x176_S_d0_1_2_3 h_S_) main_v2 main_c
  let main_v4 : FVec F S384x2 .f32 := Host.absf main_arg1
  let main_cst_0 : FVec F S_ .f32 := constant S_ .f32 0x7F800000#32
  let main_v5 : FVec F S384x2 .f32 := broadcastInDim S384x2 ![] bcast_S_S384x2 main_cst_0
  let main_v6 : IVec S384x2 1 := cmpf .olt main_v4 main_v5
  let main_c_1 : IVec S_ 1 := constantI S_ 1 1#1
  let main_v7 : IVec S_ 1 := (fun x v => Host.reduce IntOp.andi x v reducesTo_S384x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S384x14 .f32 := Host.absf main_arg3
  let main_cst_4 : FVec F S_ .f32 := constant S_ .f32 0x7F800000#32
  let main_v15 : FVec F S384x14 .f32 := broadcastInDim S384x14 ![] bcast_S_S384x14 main_cst_4
  let main_v16 : IVec S384x14 1 := cmpf .olt main_v14 main_v15
  fn_part1 (F := F) main_arg4 main_arg5 main_arg6 main_v13 main_v16
-- ==== Kernel.lean ====
abbrev S8x384x200x176 : Shape := ⟨4, ![8, 384, 200, 176]⟩
abbrev S384x2 : Shape := ⟨2, ![384, 2]⟩
abbrev S2 : Shape := ⟨1, ![2]⟩
abbrev S384x14 : Shape := ⟨2, ![384, 14]⟩
abbrev S14 : Shape := ⟨1, ![14]⟩
abbrev S384x4 : Shape := ⟨2, ![384, 4]⟩
abbrev S4 : Shape := ⟨1, ![4]⟩
abbrev S384x20 : Shape := ⟨2, ![384, 20]⟩
abbrev S20x384 : Shape := ⟨2, ![20, 384]⟩
abbrev S_ : Shape := ⟨0, ![]⟩
abbrev S32x384 : Shape := ⟨2, ![32, 384]⟩
abbrev S20 : Shape := ⟨1, ![20]⟩
abbrev S32 : Shape := ⟨1, ![32]⟩
abbrev S32x1 : Shape := ⟨2, ![32, 1]⟩
abbrev S8x384x35200 : Shape := ⟨3, ![8, 384, 35200]⟩
abbrev S8x32x35200 : Shape := ⟨3, ![8, 32, 35200]⟩
abbrev S1x384x7040 : Shape := ⟨3, ![1, 384, 7040]⟩
abbrev S1x32x7040 : Shape := ⟨3, ![1, 32, 7040]⟩
abbrev S384x7040 : Shape := ⟨2, ![384, 7040]⟩
abbrev S32x7040 : Shape := ⟨2, ![32, 7040]⟩
abbrev S8x32x200x176 : Shape := ⟨4, ![8, 32, 200, 176]⟩
abbrev S8x2x200x176 : Shape := ⟨4, ![8, 2, 200, 176]⟩
abbrev S8x14x200x176 : Shape := ⟨4, ![8, 14, 200, 176]⟩
abbrev S8x4x200x176 : Shape := ⟨4, ![8, 4, 200, 176]⟩

abbrev nBuf : Space → Nat
  | .hbm => 23
  | .vmem => 6
  | .smem => 0
  | _ => 0

abbrev bufTy : (tb : Table) → Fin (tcTables nBuf tb) → BufTy
  | .hbm, ⟨0, _⟩ => ⟨S8x384x200x176, .f32⟩
  | .hbm, ⟨1, _⟩ => ⟨S384x2, .f32⟩
  | .hbm, ⟨2, _⟩ => ⟨S2, .f32⟩
  | .hbm, ⟨3, _⟩ => ⟨S384x14, .f32⟩
  | .hbm, ⟨4, _⟩ => ⟨S14, .f32⟩
  | .hbm, ⟨5, _⟩ => ⟨S384x4, .f32⟩
  | .hbm, ⟨6, _⟩ => ⟨S4, .f32⟩
  | .hbm, ⟨7, _⟩ => ⟨S384x20, .f32⟩
  | .hbm, ⟨8, _⟩ => ⟨S20x384, .f32⟩
  | .hbm, ⟨9, _⟩ => ⟨S_, .i32⟩
  | .hbm, ⟨10, _⟩ => ⟨S_, .f32⟩
  | .hbm, ⟨11, _⟩ => ⟨S32x384, .f32⟩
  | .hbm, ⟨12, _⟩ => ⟨S20, .f32⟩
  | .hbm, ⟨13, _⟩ => ⟨S_, .i32⟩
  | .hbm, ⟨14, _⟩ => ⟨S_, .f32⟩
  | .hbm, ⟨15, _⟩ => ⟨S32, .f32⟩
  | .hbm, ⟨16, _⟩ => ⟨S32x1, .f32⟩
  | .hbm, ⟨17, _⟩ => ⟨S8x384x35200, .f32⟩
  | .hbm, ⟨18, _⟩ => ⟨S8x32x35200, .f32⟩
  | .hbm, ⟨19, _⟩ => ⟨S8x32x200x176, .f32⟩
  | .hbm, ⟨20, _⟩ => ⟨S8x2x200x176, .f32⟩
  | .hbm, ⟨21, _⟩ => ⟨S8x14x200x176, .f32⟩
  | .hbm, ⟨22, _⟩ => ⟨S8x4x200x176, .f32⟩
  | .local _ .vmem, ⟨0, _⟩ => ⟨S1x384x7040, .f32⟩
  | .local _ .vmem, ⟨1, _⟩ => ⟨S1x384x7040, .f32⟩
  | .local _ .vmem, ⟨2, _⟩ => ⟨S32x384, .f32⟩
  | .local _ .vmem, ⟨3, _⟩ => ⟨S32x1, .f32⟩
  | .local _ .vmem, ⟨4, _⟩ => ⟨S1x32x7040, .f32⟩
  | .local _ .vmem, ⟨5, _⟩ => ⟨S1x32x7040, .f32⟩
  | _, _ => ⟨S8x384x200x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x7040 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x7040 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S384x2_S384x14_S384x4_S384x20_d1 : Shape.Concatenates [S384x2, S384x14, S384x4] S384x20 1
  transposes_S384x20_S20x384_1_0 : S384x20.Transposes [1, 0] S20x384
  pads_S20x384_S32x384_0120_000 : S20x384.Pads (![0, 0] : Fin 2 → Nat) ![12, 0] ![0, 0] S32x384
  h_S_ : 0 < S_.numel
  concatenates_S2_S14_S4_S20_d0 : Shape.Concatenates [S2, S14, S4] S20 0
  pads_S20_S32_0120 : S20.Pads (![0] : Fin 1 → Nat) ![12] ![0] S32
  bcast_S32_S32x1_0 : S32.BroadcastsInDim S32x1 (![0] : Fin 1 → Fin S32x1.rank)
  shapeCasts_S8x384x200x176_S8x384x35200 : S8x384x200x176.ShapeCasts S8x384x35200
  inb_S32x384_S32x384_0_0 : ∀ a, (![0, 0] : Fin 2 → Nat) a + S32x384.size a ≤ S32x384.size a
  h_S32x384 : 0 < S32x384.numel
  shapeCasts_S32x384_S32x384 : S32x384.ShapeCasts S32x384
  inb_S1x384x7040_S1x384x7040_0_0_0 : ∀ a, (![0, 0, 0] : Fin 3 → Nat) a + S1x384x7040.size a ≤ S1x384x7040.size a
  h_S1x384x7040 : 0 < S1x384x7040.numel
  shapeCasts_S1x384x7040_S384x7040 : S1x384x7040.ShapeCasts S384x7040
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x7040 : S32x1.Broadcasts S32x7040
  inb_S1x32x7040_S1x32x7040_0_0_0 : ∀ a, (![0, 0, 0] : Fin 3 → Nat) a + S1x32x7040.size a ≤ S1x32x7040.size a
  h_S1x32x7040 : 0 < S1x32x7040.numel
  shapeCasts_S1x32x7040_S32x7040 : S1x32x7040.ShapeCasts S32x7040
  shapeCasts_S32x7040_S1x32x7040 : S32x7040.ShapeCasts S1x32x7040
  shapeCasts_S8x32x35200_S8x32x200x176 : S8x32x35200.ShapeCasts S8x32x200x176
  slices_S8x32x200x176_S8x2x200x176_0_0_0_0 : S8x32x200x176.Slices ![0, 0, 0, 0] S8x2x200x176
  slices_S8x32x200x176_S8x14x200x176_0_2_0_0 : S8x32x200x176.Slices ![0, 2, 0, 0] S8x14x200x176
  slices_S8x32x200x176_S8x4x200x176_0_16_0_0 : S8x32x200x176.Slices ![0, 16, 0, 0] S8x4x200x176
  dot_S32x384_S384x7040_S32x7040_1_0_0_1_n_n_wf : DotDims.WF S32x384 S384x7040 S32x7040 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x7040.size a ≤ S8x384x35200.size a
  hwx0_0 : ∀ i : grid0.Coords, EltTy.bits .f32 = 32 ∨ (Rect.block (s := S8x384x35200) S1x384x7040.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x384.size a ≤ S32x384.size a
  hwx0_1 : ∀ i : grid0.Coords, EltTy.bits .f32 = 32 ∨ (Rect.block (s := S32x384) S32x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x7040.size a ≤ S8x32x35200.size a
  hwx0_3 : ∀ i : grid0.Coords, EltTy.bits .f32 = 32 ∨ (Rect.block (s := S8x32x35200) S1x32x7040.size (cc0_transform_3 i) (hinb0_3 i)).WholeWords (EltTy.packing .f32)

variable [Facts₀]

def dot_S32x384_S384x7040_S32x7040_1_0_0_1_n_n : DotDims S32x384 S384x7040 S32x7040 where
  lhsContracting := [1]
  rhsContracting := [0]
  lhsNonContracting := [0]
  rhsNonContracting := [1]
  lhsBatch := []
  rhsBatch := []
  wf := dot_S32x384_S384x7040_S32x7040_1_0_0_1_n_n_wf

abbrev win0_0 : Pipeline.Window sig grid0 :=
  Pipeline.Window.ofSpec (Memref.whole main_v6) S1x384x7040.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x32x7040.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x384x200x176 : Shape := ⟨4, ![8, 384, 200, 176]⟩
abbrev S384x2 : Shape := ⟨2, ![384, 2]⟩
abbrev S2 : Shape := ⟨1, ![2]⟩
abbrev S384x14 : Shape := ⟨2, ![384, 14]⟩
abbrev S14 : Shape := ⟨1, ![14]⟩
abbrev S384x4 : Shape := ⟨2, ![384, 4]⟩
abbrev S4 : Shape := ⟨1, ![4]⟩
abbrev S8x200x176x384 : Shape := ⟨4, ![8, 200, 176, 384]⟩
abbrev S8x200x176x2 : Shape := ⟨4, ![8, 200, 176, 2]⟩
abbrev S1x1x1x2 : Shape := ⟨4, ![1, 1, 1, 2]⟩
abbrev S8x2x200x176 : Shape := ⟨4, ![8, 2, 200, 176]⟩
abbrev S8x200x176x14 : Shape := ⟨4, ![8, 200, 176, 14]⟩
abbrev S1x1x1x14 : Shape := ⟨4, ![1, 1, 1, 14]⟩
abbrev S8x14x200x176 : Shape := ⟨4, ![8, 14, 200, 176]⟩
abbrev S8x200x176x4 : Shape := ⟨4, ![8, 200, 176, 4]⟩
abbrev S1x1x1x4 : Shape := ⟨4, ![1, 1, 1, 4]⟩
abbrev S8x4x200x176 : Shape := ⟨4, ![8, 4, 200, 176]⟩

abbrev nBuf : Space → Nat
  | .hbm => 23
  | .vmem => 0
  | .smem => 0
  | _ => 0

abbrev bufTy : (tb : Table) → Fin (tcTables nBuf tb) → BufTy
  | .hbm, ⟨0, _⟩ => ⟨S8x384x200x176, .f32⟩
  | .hbm, ⟨1, _⟩ => ⟨S384x2, .f32⟩
  | .hbm, ⟨2, _⟩ => ⟨S2, .f32⟩
  | .hbm, ⟨3, _⟩ => ⟨S384x14, .f32⟩
  | .hbm, ⟨4, _⟩ => ⟨S14, .f32⟩
  | .hbm, ⟨5, _⟩ => ⟨S384x4, .f32⟩
  | .hbm, ⟨6, _⟩ => ⟨S4, .f32⟩
  | .hbm, ⟨7, _⟩ => ⟨S8x200x176x384, .f32⟩
  | .hbm, ⟨8, _⟩ => ⟨S8x200x176x2, .f32⟩
  | .hbm, ⟨9, _⟩ => ⟨S1x1x1x2, .f32⟩
  | .hbm, ⟨10, _⟩ => ⟨S8x200x176x2, .f32⟩
  | .hbm, ⟨11, _⟩ => ⟨S8x200x176x2, .f32⟩
  | .hbm, ⟨12, _⟩ => ⟨S8x2x200x176, .f32⟩
  | .hbm, ⟨13, _⟩ => ⟨S8x200x176x14, .f32⟩
  | .hbm, ⟨14, _⟩ => ⟨S1x1x1x14, .f32⟩
  | .hbm, ⟨15, _⟩ => ⟨S8x200x176x14, .f32⟩
  | .hbm, ⟨16, _⟩ => ⟨S8x200x176x14, .f32⟩
  | .hbm, ⟨17, _⟩ => ⟨S8x14x200x176, .f32⟩
  | .hbm, ⟨18, _⟩ => ⟨S8x200x176x4, .f32⟩
  | .hbm, ⟨19, _⟩ => ⟨S1x1x1x4, .f32⟩
  | .hbm, ⟨20, _⟩ => ⟨S8x200x176x4, .f32⟩
  | .hbm, ⟨21, _⟩ => ⟨S8x200x176x4, .f32⟩
  | .hbm, ⟨22, _⟩ => ⟨S8x4x200x176, .f32⟩
  | _, _ => ⟨S8x384x200x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S8x384x200x176_S8x200x176x384_0_2_3_1 : S8x384x200x176.Transposes [0, 2, 3, 1] S8x200x176x384
  bcast_S2_S1x1x1x2_3 : S2.BroadcastsInDim S1x1x1x2 (![3] : Fin 1 → Fin S1x1x1x2.rank)
  bcast_S1x1x1x2_S8x200x176x2_0_1_2_3 : S1x1x1x2.BroadcastsInDim S8x200x176x2 (![0, 1, 2, 3] : Fin 4 → Fin S8x200x176x2.rank)
  transposes_S8x200x176x2_S8x2x200x176_0_3_1_2 : S8x200x176x2.Transposes [0, 3, 1, 2] S8x2x200x176
  bcast_S14_S1x1x1x14_3 : S14.BroadcastsInDim S1x1x1x14 (![3] : Fin 1 → Fin S1x1x1x14.rank)
  bcast_S1x1x1x14_S8x200x176x14_0_1_2_3 : S1x1x1x14.BroadcastsInDim S8x200x176x14 (![0, 1, 2, 3] : Fin 4 → Fin S8x200x176x14.rank)
  transposes_S8x200x176x14_S8x14x200x176_0_3_1_2 : S8x200x176x14.Transposes [0, 3, 1, 2] S8x14x200x176
  bcast_S4_S1x1x1x4_3 : S4.BroadcastsInDim S1x1x1x4 (![3] : Fin 1 → Fin S1x1x1x4.rank)
  bcast_S1x1x1x4_S8x200x176x4_0_1_2_3 : S1x1x1x4.BroadcastsInDim S8x200x176x4 (![0, 1, 2, 3] : Fin 4 → Fin S8x200x176x4.rank)
  transposes_S8x200x176x4_S8x4x200x176_0_3_1_2 : S8x200x176x4.Transposes [0, 3, 1, 2] S8x4x200x176
  dot_S8x200x176x384_S384x2_S8x200x176x2_3_0_012_1_n_n_wf : DotDims.WF S8x200x176x384 S384x2 S8x200x176x2 [3] [0] [0, 1, 2] [1] [] []
  dot_S8x200x176x384_S384x14_S8x200x176x14_3_0_012_1_n_n_wf : DotDims.WF S8x200x176x384 S384x14 S8x200x176x14 [3] [0] [0, 1, 2] [1] [] []
  dot_S8x200x176x384_S384x4_S8x200x176x4_3_0_012_1_n_n_wf : DotDims.WF S8x200x176x384 S384x4 S8x200x176x4 [3] [0] [0, 1, 2] [1] [] []

variable [Facts₀]

def dot_S8x200x176x384_S384x2_S8x200x176x2_3_0_012_1_n_n : DotDims S8x200x176x384 S384x2 S8x200x176x2 where
  lhsContracting := [3]
  rhsContracting := [0]
  lhsNonContracting := [0, 1, 2]
  rhsNonContracting := [1]
  lhsBatch := []
  rhsBatch := []
  wf := dot_S8x200x176x384_S384x2_S8x200x176x2_3_0_012_1_n_n_wf
def dot_S8x200x176x384_S384x14_S8x200x176x14_3_0_012_1_n_n : DotDims S8x200x176x384 S384x14 S8x200x176x14 where
  lhsContracting := [3]
  rhsContracting := [0]
  lhsNonContracting := [0, 1, 2]
  rhsNonContracting := [1]
  lhsBatch := []
  rhsBatch := []
  wf := dot_S8x200x176x384_S384x14_S8x200x176x14_3_0_012_1_n_n_wf
def dot_S8x200x176x384_S384x4_S8x200x176x4_3_0_012_1_n_n : DotDims S8x200x176x384 S384x4 S8x200x176x4 where
  lhsContracting := [3]
  rhsContracting := [0]
  lhsNonContracting := [0, 1, 2]
  rhsNonContracting := [1]
  lhsBatch := []
  rhsBatch := []
  wf := dot_S8x200x176x384_S384x4_S8x200x176x4_3_0_012_1_n_n_wf

class Facts : Prop extends Facts₀ where

variable [Facts]
-- ==== Proof.FrameKernel.lean ====
/-
  The frame of `Kernel`: every weakly fair execution of @main terminates without a fault and leaves the seven argument
  arrays as launched — with, on the way, every buffer's final contents named, which the value proof reads.

  @main is: host operations (the three weight matrices concatenated along the output-channel axis, transposed and
  padded with twelve zero rows to `[32, 384]`; the three biases concatenated, padded and turned into a column
  `[32, 1]`; the feature map re-read as `[8, 384, 35200]`), ONE pipelined region over the grid `8 × 5`, and host
  operations after it (the result `[8, 32, 35200]` re-read as `[8, 32, 200, 176]` and cut into channels `0:2`, `2:16`,
  `16:20`). At grid point `t` the region's body reads three blocks — block `t` of the feature map `[1, 384, 7040]`, the
  whole weight matrix, the whole bias column —, and overwrites the WHOLE output block `[1, 32, 7040]` with one value
  computed from them (`k0_pay1`: a matrix product into zero plus the broadcast column). It also loads the output block
  first and drops what it read. So: each input buffer holds its array's block at every point and is left as found;
  the output buffer ends every point at that one value; nothing outside the four staging buffers is touched by the body;
  no host operation writes an argument array.
-/
import proofs.«142189_g47064251629653_cont_8to1c4_533_11_alg».proof.Proof.Gen.Kernel.Launch
import proofs.«142189_g47064251629653_cont_8to1c4_533_11_alg».proof.Proof.Gen.Kernel.Skeleton
import proofs.«142189_g47064251629653_cont_8to1c4_533_11_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The five stretches of host operations before the region, in program order. -/
abbrev before : List (List (HloOp τ sig (Elt F))) := [hostOps0, hostOps0_1, hostOps0_2, hostOps0_3, hostOps0_4]

/-- Core `c`'s buffer contents when the region is entered: the launch memory after the host operations before it. -/
abbrev entry (c : Dev nD) : Valuation τ sig (Elt F) := StableHlo.after (List.flatten (before (F := F))) (fun b => m (c, b))
/-- The same read at a TensorCore reference. -/
abbrev atEntry (c : Dev nD) (b : Ref sig .tc) : Buf (Elt F) ((c : Thread nD τ).loc b) := entry m c (Proc.devRef .tc b)

/-- No host operation allocates a buffer. -/
theorem before_fresh : (before (F := F)).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor
/-- Every host operation before the region touches TensorCore references only. -/
theorem before_sub : (before (F := F)).Forall fun ops => ops.Forall fun op => op.bufs ⊆ StableHlo.tcRefs τ sig := by
  simp only [List.Forall]; exact ⟨hostOps0_sub, hostOps0_1_sub, hostOps0_2_sub, hostOps0_3_sub, hostOps0_4_sub⟩

/-- @main is the host operations before the region, the region, and the host operations after it: it reduces to the
    region continued by the later operations, entered at `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main (before (F := F)) [hostOps1] before_sub before_fresh main_chain

/-- The operations after the region touch only the region's four arrays and the buffers that bypass it. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is none of the region's four arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.reshape_writes, Finset.mem_singleton] <;> exact StableHlo.devRef_ne_of_ne (by decide)

/-- A buffer that none of the listed operations writes: each operation's one written buffer is another reference. -/
local macro "not_written" : tactic => `(tactic| (
  simp only [before, hostOps0, hostOps0_1, hostOps0_2, hostOps0_3, hostOps0_4, hostOps1, List.flatten_cons, List.flatten_nil, List.append_nil,
    List.cons_append, List.nil_append, List.Forall, StableHlo.nullary_writes, StableHlo.unary_writes, StableHlo.binary_writes,
    StableHlo.nary_writes, StableHlo.reshape_writes, Finset.mem_singleton]
  repeat' apply And.intro
  all_goals exact StableHlo.devRef_ne_of_ne (by decide)))

/-- No host operation before the region writes an argument array: the region finds each as launched. -/
theorem entry_arg0 (c : Dev nD) : atEntry m c main_arg0 = m ((c : Thread nD τ).loc main_arg0) :=
  StableHlo.after_of_forall_not_mem (b := Proc.devRef .tc main_arg0) _ _ (List.forall_iff_forall_mem.mp (by not_written))
theorem entry_arg1 (c : Dev nD) : atEntry m c main_arg1 = m ((c : Thread nD τ).loc main_arg1) :=
  StableHlo.after_of_forall_not_mem (b := Proc.devRef .tc main_arg1) _ _ (List.forall_iff_forall_mem.mp (by not_written))
theorem entry_arg2 (c : Dev nD) : atEntry m c main_arg2 = m ((c : Thread nD τ).loc main_arg2) :=
  StableHlo.after_of_forall_not_mem (b := Proc.devRef .tc main_arg2) _ _ (List.forall_iff_forall_mem.mp (by not_written))
theorem entry_arg3 (c : Dev nD) : atEntry m c main_arg3 = m ((c : Thread nD τ).loc main_arg3) :=
  StableHlo.after_of_forall_not_mem (b := Proc.devRef .tc main_arg3) _ _ (List.forall_iff_forall_mem.mp (by not_written))
theorem entry_arg4 (c : Dev nD) : atEntry m c main_arg4 = m ((c : Thread nD τ).loc main_arg4) :=
  StableHlo.after_of_forall_not_mem (b := Proc.devRef .tc main_arg4) _ _ (List.forall_iff_forall_mem.mp (by not_written))
theorem entry_arg5 (c : Dev nD) : atEntry m c main_arg5 = m ((c : Thread nD τ).loc main_arg5) :=
  StableHlo.after_of_forall_not_mem (b := Proc.devRef .tc main_arg5) _ _ (List.forall_iff_forall_mem.mp (by not_written))
theorem entry_arg6 (c : Dev nD) : atEntry m c main_arg6 = m ((c : Thread nD τ).loc main_arg6) :=
  StableHlo.after_of_forall_not_mem (b := Proc.devRef .tc main_arg6) _ _ (List.forall_iff_forall_mem.mp (by not_written))

/-- Nor does one after it, and no argument array is one of the region's four arrays: each ends as launched. -/
theorem final_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by not_written)),
    Pipeline.withArrays_of_ne _ c (entry m c) _ main_arg0 (by exact (by decide : ∀ w, Pipeline.arrRef spec0 w ≠ main_arg0))]
  exact entry_arg0 m c
theorem final_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by not_written)),
    Pipeline.withArrays_of_ne _ c (entry m c) _ main_arg1 (by exact (by decide : ∀ w, Pipeline.arrRef spec0 w ≠ main_arg1))]
  exact entry_arg1 m c
theorem final_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by not_written)),
    Pipeline.withArrays_of_ne _ c (entry m c) _ main_arg2 (by exact (by decide : ∀ w, Pipeline.arrRef spec0 w ≠ main_arg2))]
  exact entry_arg2 m c
theorem final_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by not_written)),
    Pipeline.withArrays_of_ne _ c (entry m c) _ main_arg3 (by exact (by decide : ∀ w, Pipeline.arrRef spec0 w ≠ main_arg3))]
  exact entry_arg3 m c
theorem final_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by not_written)),
    Pipeline.withArrays_of_ne _ c (entry m c) _ main_arg4 (by exact (by decide : ∀ w, Pipeline.arrRef spec0 w ≠ main_arg4))]
  exact entry_arg4 m c
theorem final_arg5 (dats : (p : Fin _) → (c : Dev nD) → Dat τ (Elt F) Unit ℕ (UR sig nD τ) ℕ (cfgs p) c) (c : Dev nD) :
    Pipeline.afterTail₀ cfgs dats 0 (entry m) [hostOps1] c main_arg5 = m ((c : Thread nD τ).loc main_arg5) := by
  unfold Pipeline.afterTail₀
  rw [StableHlo.after_of_forall_not_mem (b := Proc.devRef .tc main_arg5) _ _ (List.forall_iff_forall_mem.mp (by not_written)),
    Pipeline.withArrays_of_ne _ c (entry m c) _ main_arg5 (by exact (by decide : ∀ w, Pipeline.arrRef spec0 w ≠ main_arg5))]
  exact entry_arg5 m c
theorem final_arg6 (dats : (p : Fin _) → (c : Dev nD) → Dat τ (Elt F) Unit ℕ (UR sig nD τ) ℕ (cfgs p) c) (c : Dev nD) :
    Pipeline.afterTail₀ cfgs dats 0 (entry m) [hostOps1] c main_arg6 = m ((c : Thread nD τ).loc main_arg6) := by
  unfold Pipeline.afterTail₀
  rw [StableHlo.after_of_forall_not_mem (b := Proc.devRef .tc main_arg6) _ _ (List.forall_iff_forall_mem.mp (by not_written)),
    Pipeline.withArrays_of_ne _ c (entry m c) _ main_arg6 (by exact (by decide : ∀ w, Pipeline.arrRef spec0 w ≠ main_arg6))]
  exact entry_arg6 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not (when it is not,
    the block index has not moved since the last fetch), for any proof data over the entry contents whose body leaves
    the block in place. One lemma per input window: the feature map's, the weights', the bias column's. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole-buffer rectangles the body's four loads and its one store go through. -/
abbrev allX : Rect S1x384x7040 := Rect.unit (s := S1x384x7040) ![0, 0, 0] S1x384x7040.size inb_S1x384x7040_S1x384x7040_0_0_0
abbrev allW : Rect S32x384 := Rect.unit (s := S32x384) ![0, 0] S32x384.size inb_S32x384_S32x384_0_0
abbrev allB : Rect S32x1 := Rect.unit (s := S32x1) ![0, 0] S32x1.size inb_S32x1_S32x1_0_0
abbrev allY : Rect S1x32x7040 := Rect.unit (s := S1x32x7040) ![0, 0, 0] S1x32x7040.size inb_S1x32x7040_S1x32x7040_0_0_0

/-- What the output buffer holds after the body, from the three input buffers' contents: its one store, of the body's
    one computed value, through the whole-buffer rectangle. -/
def stored (x : Vec F S1x384x7040 .f32) (w : Vec F S32x384 .f32) (b : Vec F S32x1 .f32) : Vec F S1x32x7040 .f32 :=
  View.canon [⟨allY, k0_pay1 (View.ld w allW) (View.ld x allX) (View.ld b allB)⟩]

/-- That one store covers the buffer. -/
theorem stored_covers (p : Vec F S1x32x7040 .f32) (y : S1x32x7040.Idx) :
    ∃ pc ∈ ([⟨allY, p⟩] : List (View.Piece (Elt F) S1x32x7040 .f32)), y ∈ pc.1.set :=
  View.cover_of_tiled [⟨allY, p⟩] S1x32x7040.size (by rfl) y

set_option maxHeartbeats 1000000 in
/-- The body on whole staging buffers — the inputs' at contents `x`, `w`, `b`, the output's at anything — runs to its
    continuation with the inputs' as they were and the output's at `stored x w b`. -/
theorem body_runs (c : Dev nD) (E : Set ℕ) (i : grid0.Coords)
    (arg2 : Memref sig .tc .vmem S1x384x7040 .f32) (harg2 : arg2.IsWhole) (arg3 : Memref sig .tc .vmem S32x384 .f32) (harg3 : arg3.IsWhole)
    (arg4 : Memref sig .tc .vmem S32x1 .f32) (harg4 : arg4.IsWhole) (arg5 : Memref sig .tc .vmem S1x32x7040 .f32) (harg5 : arg5.IsWhole)
    (x : Vec F S1x384x7040 .f32) (w : Vec F S32x384 .f32) (b : Vec F S32x1 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (stored x w b)) -∗ K ⟨⟩))
      ⊢ wp frame (wpE (defs₀ (F := F)) Variants.none c none) E (cc0__head_kernel i arg2 harg2 arg3 harg3 arg4 harg4 arg5 harg5) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The region's proof data -/

/-- The proof data of the one region on core `c`: the four arrays as the region finds them; after the body at point
    `t` each input's buffer at its block and the output's at `stored` of the three blocks; the invariant is the rest of
    the core (the body touches nothing else); nothing owed; full shares. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem regionData_A (c : Dev nD) (w : Fin cfg0.W) : (regionData m 0 c).A w = atEntry m c (Pipeline.arrRef spec0 w) := by
  dsimp only [regionData]
theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) :
    (regionData m 0 c).after 3 t = stored (blockAt m c 0 t) (blockAt m c 1 t) (blockAt m c 2 t) := by dsimp only [regionData]

theorem found0 (c : Dev nD) (t : Fin cfg0.N) (d) : (regionData m 0 c).before 0 t d = blockAt m c 0 t :=
  held0 m (regionData m 0 c) (regionData_A m c 0) (left0 m c) t d
theorem found1 (c : Dev nD) (t : Fin cfg0.N) (d) : (regionData m 0 c).before 1 t d = blockAt m c 1 t :=
  held1 m (regionData m 0 c) (regionData_A m c 1) (left1 m c) t d
theorem found2 (c : Dev nD) (t : Fin cfg0.N) (d) : (regionData m 0 c).before 2 t d = blockAt m c 2 t :=
  held2 m (regionData m 0 c) (regionData_A m c 2) (left2 m c) t d

/-! ## The body at a grid point -/

/-- What the body is called with at point `t`: the invariant, the core's dues, and the four windows' current staging
    buffers at what the pipeline left in them. -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d)))

/-- What it returns. -/
def returned (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t))

/-- The body at any point: the inputs' buffers hold their blocks, so `body_runs` applies; the invariant and the dues
    pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (regionData m 0 c).Φ t.succ = (regionData m 0 c).Φ t.castSucc from rfl,
    show (regionData m 0 c).owesAt () t.succ = (regionData m 0 c).owesAt () t.castSucc from rfl,
    left0, left1, left2, left3]
  iintro ⟨HΦ, Ho, ⟨%d0, H0⟩, ⟨%d1, H1⟩, ⟨%d2, H2⟩, ⟨%d3, H3⟩⟩
  iapply (body_runs c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation (c : Dev nD) : BodyObligation (regionData (F := F) m 0 c) (defs₀ (F := F)) Variants.none () Set.univ := fun t => by
  rw [bigSep_W0, bigSep_W0]
  exact body_at m c t

/-! ## The run and the frame -/

set_option backward.isDefEq.respectTransparency.types false in
/-- From any memory with zero counters, every weakly fair execution of @main terminates, and in every final state each
    of the region's arrays holds what the pipeline wrote back from the proof data, and every other unscoped buffer what
    the host operations after the region leave. -/
theorem region_run : θ_run defs (onTc (τ := τ) (main (F := F))) (s₀ m ρ)
    (Pipeline.FramePost cfgs (regionData m) 0 (Pipeline.afterTail₀ cfgs (regionData m) 0 (entry m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry m) (opss := [hostOps1]) (hsub := after_sub) (hfresh := after_fresh) (hkeep := after_keeps)
    (hmain := main_around m Variants.none) (hA := regionData_A m) (hΦ := fun _ _ => rfl)

/-- THE FRAME: @main runs to the end without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (final_arg0 m (regionData m) c),
     ((h c).2 main_arg1 (Pipeline.mem_restRefs_of main_arg1 (by decide) (by decide))).trans (final_arg1 m (regionData m) c),
     ((h c).2 main_arg2 (Pipeline.mem_restRefs_of main_arg2 (by decide) (by decide))).trans (final_arg2 m (regionData m) c),
     ((h c).2 main_arg3 (Pipeline.mem_restRefs_of main_arg3 (by decide) (by decide))).trans (final_arg3 m (regionData m) c),
     ((h c).2 main_arg4 (Pipeline.mem_restRefs_of main_arg4 (by decide) (by decide))).trans (final_arg4 m (regionData m) c),
     ((h c).2 main_arg5 (Pipeline.mem_restRefs_of main_arg5 (by decide) (by decide))).trans (final_arg5 m (regionData m) c),
     ((h c).2 main_arg6 (Pipeline.mem_restRefs_of main_arg6 (by decide) (by decide))).trans (final_arg6 m (regionData m) c)⟩)
    (region_run m ρ)

end Cert.Kernel.Hand

end
-- ==== Proof.FrameKernelIdeal.lean ====
/-
  The frame of `KernelIdeal`: every weakly fair execution of @main terminates without a fault and leaves the seven argument
  arrays as launched — with, on the way, every buffer's final contents named, which the value proof reads.

  @main is: host operations (the three weight matrices concatenated along the output-channel axis, transposed and
  padded with twelve zero rows to `[32, 384]`; the three biases concatenated, padded and turned into a column
  `[32, 1]`; the feature map re-read as `[8, 384, 35200]`), ONE pipelined region over the grid `8 × 5`, and host
  operations after it (the result `[8, 32, 35200]` re-read as `[8, 32, 200, 176]` and cut into channels `0:2`, `2:16`,
  `16:20`). At grid point `t` the region's body reads three blocks — block `t` of the feature map `[1, 384, 7040]`, the
  whole weight matrix, the whole bias column —, and overwrites the WHOLE output block `[1, 32, 7040]` with one value
  computed from them (`k0_pay1`: a matrix product into zero plus the broadcast column). It also loads the output block
  first and drops what it read. So: each input buffer holds its array's block at every point and is left as found;
  the output buffer ends every point at that one value; nothing outside the four staging buffers is touched by the body;
  no host operation writes an argument array.
-/
import proofs.«142189_g47064251629653_cont_8to1c4_533_11_alg».proof.Proof.Gen.KernelIdeal.Launch
import proofs.«142189_g47064251629653_cont_8to1c4_533_11_alg».proof.Proof.Gen.KernelIdeal.Skeleton
import proofs.«142189_g47064251629653_cont_8to1c4_533_11_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The five stretches of host operations before the region, in program order. -/
abbrev before : List (List (HloOp τ sig (Elt F))) := [hostOps0, hostOps0_1, hostOps0_2, hostOps0_3, hostOps0_4]

/-- Core `c`'s buffer contents when the region is entered: the launch memory after the host operations before it. -/
abbrev entry (c : Dev nD) : Valuation τ sig (Elt F) := StableHlo.after (List.flatten (before (F := F))) (fun b => m (c, b))
/-- The same read at a TensorCore reference. -/
abbrev atEntry (c : Dev nD) (b : Ref sig .tc) : Buf (Elt F) ((c : Thread nD τ).loc b) := entry m c (Proc.devRef .tc b)

/-- No host operation allocates a buffer. -/
theorem before_fresh : (before (F := F)).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor
/-- Every host operation before the region touches TensorCore references only. -/
theorem before_sub : (before (F := F)).Forall fun ops => ops.Forall fun op => op.bufs ⊆ StableHlo.tcRefs τ sig := by
  simp only [List.Forall]; exact ⟨hostOps0_sub, hostOps0_1_sub, hostOps0_2_sub, hostOps0_3_sub, hostOps0_4_sub⟩

/-- @main is the host operations before the region, the region, and the host operations after it: it reduces to the
    region continued by the later operations, entered at `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main (before (F := F)) [hostOps1] before_sub before_fresh main_chain

/-- The operations after the region touch only the region's four arrays and the buffers that bypass it. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is none of the region's four arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.reshape_writes, Finset.mem_singleton] <;> exact StableHlo.devRef_ne_of_ne (by decide)

/-- A buffer that none of the listed operations writes: each operation's one written buffer is another reference. -/
local macro "not_written" : tactic => `(tactic| (
  simp only [before, hostOps0, hostOps0_1, hostOps0_2, hostOps0_3, hostOps0_4, hostOps1, List.flatten_cons, List.flatten_nil, List.append_nil,
    List.cons_append, List.nil_append, List.Forall, StableHlo.nullary_writes, StableHlo.unary_writes, StableHlo.binary_writes,
    StableHlo.nary_writes, StableHlo.reshape_writes, Finset.mem_singleton]
  repeat' apply And.intro
  all_goals exact StableHlo.devRef_ne_of_ne (by decide)))

/-- No host operation before the region writes an argument array: the region finds each as launched. -/
theorem entry_arg0 (c : Dev nD) : atEntry m c main_arg0 = m ((c : Thread nD τ).loc main_arg0) :=
  StableHlo.after_of_forall_not_mem (b := Proc.devRef .tc main_arg0) _ _ (List.forall_iff_forall_mem.mp (by not_written))
theorem entry_arg1 (c : Dev nD) : atEntry m c main_arg1 = m ((c : Thread nD τ).loc main_arg1) :=
  StableHlo.after_of_forall_not_mem (b := Proc.devRef .tc main_arg1) _ _ (List.forall_iff_forall_mem.mp (by not_written))
theorem entry_arg2 (c : Dev nD) : atEntry m c main_arg2 = m ((c : Thread nD τ).loc main_arg2) :=
  StableHlo.after_of_forall_not_mem (b := Proc.devRef .tc main_arg2) _ _ (List.forall_iff_forall_mem.mp (by not_written))
theorem entry_arg3 (c : Dev nD) : atEntry m c main_arg3 = m ((c : Thread nD τ).loc main_arg3) :=
  StableHlo.after_of_forall_not_mem (b := Proc.devRef .tc main_arg3) _ _ (List.forall_iff_forall_mem.mp (by not_written))
theorem entry_arg4 (c : Dev nD) : atEntry m c main_arg4 = m ((c : Thread nD τ).loc main_arg4) :=
  StableHlo.after_of_forall_not_mem (b := Proc.devRef .tc main_arg4) _ _ (List.forall_iff_forall_mem.mp (by not_written))
theorem entry_arg5 (c : Dev nD) : atEntry m c main_arg5 = m ((c : Thread nD τ).loc main_arg5) :=
  StableHlo.after_of_forall_not_mem (b := Proc.devRef .tc main_arg5) _ _ (List.forall_iff_forall_mem.mp (by not_written))
theorem entry_arg6 (c : Dev nD) : atEntry m c main_arg6 = m ((c : Thread nD τ).loc main_arg6) :=
  StableHlo.after_of_forall_not_mem (b := Proc.devRef .tc main_arg6) _ _ (List.forall_iff_forall_mem.mp (by not_written))

/-- Nor does one after it, and no argument array is one of the region's four arrays: each ends as launched. -/
theorem final_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by not_written)),
    Pipeline.withArrays_of_ne _ c (entry m c) _ main_arg0 (by exact (by decide : ∀ w, Pipeline.arrRef spec0 w ≠ main_arg0))]
  exact entry_arg0 m c
theorem final_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by not_written)),
    Pipeline.withArrays_of_ne _ c (entry m c) _ main_arg1 (by exact (by decide : ∀ w, Pipeline.arrRef spec0 w ≠ main_arg1))]
  exact entry_arg1 m c
theorem final_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by not_written)),
    Pipeline.withArrays_of_ne _ c (entry m c) _ main_arg2 (by exact (by decide : ∀ w, Pipeline.arrRef spec0 w ≠ main_arg2))]
  exact entry_arg2 m c
theorem final_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by not_written)),
    Pipeline.withArrays_of_ne _ c (entry m c) _ main_arg3 (by exact (by decide : ∀ w, Pipeline.arrRef spec0 w ≠ main_arg3))]
  exact entry_arg3 m c
theorem final_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by not_written)),
    Pipeline.withArrays_of_ne _ c (entry m c) _ main_arg4 (by exact (by decide : ∀ w, Pipeline.arrRef spec0 w ≠ main_arg4))]
  exact entry_arg4 m c
theorem final_arg5 (dats : (p : Fin _) → (c : Dev nD) → Dat τ (Elt F) Unit ℕ (UR sig nD τ) ℕ (cfgs p) c) (c : Dev nD) :
    Pipeline.afterTail₀ cfgs dats 0 (entry m) [hostOps1] c main_arg5 = m ((c : Thread nD τ).loc main_arg5) := by
  unfold Pipeline.afterTail₀
  rw [StableHlo.after_of_forall_not_mem (b := Proc.devRef .tc main_arg5) _ _ (List.forall_iff_forall_mem.mp (by not_written)),
    Pipeline.withArrays_of_ne _ c (entry m c) _ main_arg5 (by exact (by decide : ∀ w, Pipeline.arrRef spec0 w ≠ main_arg5))]
  exact entry_arg5 m c
theorem final_arg6 (dats : (p : Fin _) → (c : Dev nD) → Dat τ (Elt F) Unit ℕ (UR sig nD τ) ℕ (cfgs p) c) (c : Dev nD) :
    Pipeline.afterTail₀ cfgs dats 0 (entry m) [hostOps1] c main_arg6 = m ((c : Thread nD τ).loc main_arg6) := by
  unfold Pipeline.afterTail₀
  rw [StableHlo.after_of_forall_not_mem (b := Proc.devRef .tc main_arg6) _ _ (List.forall_iff_forall_mem.mp (by not_written)),
    Pipeline.withArrays_of_ne _ c (entry m c) _ main_arg6 (by exact (by decide : ∀ w, Pipeline.arrRef spec0 w ≠ main_arg6))]
  exact entry_arg6 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not (when it is not,
    the block index has not moved since the last fetch), for any proof data over the entry contents whose body leaves
    the block in place. One lemma per input window: the feature map's, the weights', the bias column's. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole-buffer rectangles the body's four loads and its one store go through. -/
abbrev allX : Rect S1x384x7040 := Rect.unit (s := S1x384x7040) ![0, 0, 0] S1x384x7040.size inb_S1x384x7040_S1x384x7040_0_0_0
abbrev allW : Rect S32x384 := Rect.unit (s := S32x384) ![0, 0] S32x384.size inb_S32x384_S32x384_0_0
abbrev allB : Rect S32x1 := Rect.unit (s := S32x1) ![0, 0] S32x1.size inb_S32x1_S32x1_0_0
abbrev allY : Rect S1x32x7040 := Rect.unit (s := S1x32x7040) ![0, 0, 0] S1x32x7040.size inb_S1x32x7040_S1x32x7040_0_0_0

/-- What the output buffer holds after the body, from the three input buffers' contents: its one store, of the body's
    one computed value, through the whole-buffer rectangle. -/
def stored (x : Vec F S1x384x7040 .f32) (w : Vec F S32x384 .f32) (b : Vec F S32x1 .f32) : Vec F S1x32x7040 .f32 :=
  View.canon [⟨allY, k0_pay1 (View.ld w allW) (View.ld x allX) (View.ld b allB)⟩]

/-- That one store covers the buffer. -/
theorem stored_covers (p : Vec F S1x32x7040 .f32) (y : S1x32x7040.Idx) :
    ∃ pc ∈ ([⟨allY, p⟩] : List (View.Piece (Elt F) S1x32x7040 .f32)), y ∈ pc.1.set :=
  View.cover_of_tiled [⟨allY, p⟩] S1x32x7040.size (by rfl) y

set_option maxHeartbeats 1000000 in
/-- The body on whole staging buffers — the inputs' at contents `x`, `w`, `b`, the output's at anything — runs to its
    continuation with the inputs' as they were and the output's at `stored x w b`. -/
theorem body_runs (c : Dev nD) (E : Set ℕ) (i : grid0.Coords)
    (arg2 : Memref sig .tc .vmem S1x384x7040 .f32) (harg2 : arg2.IsWhole) (arg3 : Memref sig .tc .vmem S32x384 .f32) (harg3 : arg3.IsWhole)
    (arg4 : Memref sig .tc .vmem S32x1 .f32) (harg4 : arg4.IsWhole) (arg5 : Memref sig .tc .vmem S1x32x7040 .f32) (harg5 : arg5.IsWhole)
    (x : Vec F S1x384x7040 .f32) (w : Vec F S32x384 .f32) (b : Vec F S32x1 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (stored x w b)) -∗ K ⟨⟩))
      ⊢ wp frame (wpE (defs₀ (F := F)) Variants.none c none) E (cc0__head_kernel i arg2 harg2 arg3 harg3 arg4 harg4 arg5 harg5) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The region's proof data -/

/-- The proof data of the one region on core `c`: the four arrays as the region finds them; after the body at point
    `t` each input's buffer at its block and the output's at `stored` of the three blocks; the invariant is the rest of
    the core (the body touches nothing else); nothing owed; full shares. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem regionData_A (c : Dev nD) (w : Fin cfg0.W) : (regionData m 0 c).A w = atEntry m c (Pipeline.arrRef spec0 w) := by
  dsimp only [regionData]
theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) :
    (regionData m 0 c).after 3 t = stored (blockAt m c 0 t) (blockAt m c 1 t) (blockAt m c 2 t) := by dsimp only [regionData]

theorem found0 (c : Dev nD) (t : Fin cfg0.N) (d) : (regionData m 0 c).before 0 t d = blockAt m c 0 t :=
  held0 m (regionData m 0 c) (regionData_A m c 0) (left0 m c) t d
theorem found1 (c : Dev nD) (t : Fin cfg0.N) (d) : (regionData m 0 c).before 1 t d = blockAt m c 1 t :=
  held1 m (regionData m 0 c) (regionData_A m c 1) (left1 m c) t d
theorem found2 (c : Dev nD) (t : Fin cfg0.N) (d) : (regionData m 0 c).before 2 t d = blockAt m c 2 t :=
  held2 m (regionData m 0 c) (regionData_A m c 2) (left2 m c) t d

/-! ## The body at a grid point -/

/-- What the body is called with at point `t`: the invariant, the core's dues, and the four windows' current staging
    buffers at what the pipeline left in them. -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d)))

/-- What it returns. -/
def returned (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t))

/-- The body at any point: the inputs' buffers hold their blocks, so `body_runs` applies; the invariant and the dues
    pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (regionData m 0 c).Φ t.succ = (regionData m 0 c).Φ t.castSucc from rfl,
    show (regionData m 0 c).owesAt () t.succ = (regionData m 0 c).owesAt () t.castSucc from rfl,
    left0, left1, left2, left3]
  iintro ⟨HΦ, Ho, ⟨%d0, H0⟩, ⟨%d1, H1⟩, ⟨%d2, H2⟩, ⟨%d3, H3⟩⟩
  iapply (body_runs c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation (c : Dev nD) : BodyObligation (regionData (F := F) m 0 c) (defs₀ (F := F)) Variants.none () Set.univ := fun t => by
  rw [bigSep_W0, bigSep_W0]
  exact body_at m c t

/-! ## The run and the frame -/

set_option backward.isDefEq.respectTransparency.types false in
/-- From any memory with zero counters, every weakly fair execution of @main terminates, and in every final state each
    of the region's arrays holds what the pipeline wrote back from the proof data, and every other unscoped buffer what
    the host operations after the region leave. -/
theorem region_run : θ_run defs (onTc (τ := τ) (main (F := F))) (s₀ m ρ)
    (Pipeline.FramePost cfgs (regionData m) 0 (Pipeline.afterTail₀ cfgs (regionData m) 0 (entry m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry m) (opss := [hostOps1]) (hsub := after_sub) (hfresh := after_fresh) (hkeep := after_keeps)
    (hmain := main_around m Variants.none) (hA := regionData_A m) (hΦ := fun _ _ => rfl)

/-- THE FRAME: @main runs to the end without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (final_arg0 m (regionData m) c),
     ((h c).2 main_arg1 (Pipeline.mem_restRefs_of main_arg1 (by decide) (by decide))).trans (final_arg1 m (regionData m) c),
     ((h c).2 main_arg2 (Pipeline.mem_restRefs_of main_arg2 (by decide) (by decide))).trans (final_arg2 m (regionData m) c),
     ((h c).2 main_arg3 (Pipeline.mem_restRefs_of main_arg3 (by decide) (by decide))).trans (final_arg3 m (regionData m) c),
     ((h c).2 main_arg4 (Pipeline.mem_restRefs_of main_arg4 (by decide) (by decide))).trans (final_arg4 m (regionData m) c),
     ((h c).2 main_arg5 (Pipeline.mem_restRefs_of main_arg5 (by decide) (by decide))).trans (final_arg5 m (regionData m) c),
     ((h c).2 main_arg6 (Pipeline.mem_restRefs_of main_arg6 (by decide) (by decide))).trans (final_arg6 m (regionData m) c)⟩)
    (region_run m ρ)

end Cert.KernelIdeal.Hand

end
-- ==== Proof.PayloadKernelIdeal.lean ====
/-
  The kernel body's one computed value, read at an index, on the extended reals.

  One grid step of the kernel holds a weight block `A : [32, 384]`, a feature block `X : [1, 384, 7040]` (one batch entry,
  all 384 channels, 7040 pixels) and a bias column `c : [32, 1]`, and stores the array `[1, 32, 7040]` whose entry at
  `(0, o, n)` is `(∑ k, A[o, k] · X[0, k, n]) + c[o, 0]`: a matrix product of the weight block with the feature block seen as
  a `[384, 7040]` matrix, accumulated into zero, plus the bias column laid along the 7040 pixels. Besides the product, the
  sum and that broadcast, the body's operations only rename indices (shape casts that keep the row-major position), so
  the statement is read off operation by operation.
-/
import proofs.«142189_g47064251629653_cont_8to1c4_533_11_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## A column laid along every column position -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The matrix product `[32, 384] × [384, 7040]` at an index -/

/-- The left operand's row coordinate is the result's. -/
theorem lhs_0 (i : S32x7040.Idx) (q : dot_S32x384_S384x7040_S32x7040_1_0_0_1_n_n.contr.Idx) :
    (dot_S32x384_S384x7040_S32x7040_1_0_0_1_n_n.lhsIdx i q 0).val = (i 0).val := by
  unfold DotDims.lhsIdx
  rw [dif_neg (show ¬(0 : Fin S32x384.rank) ∈ dot_S32x384_S384x7040_S32x7040_1_0_0_1_n_n.lhsBatch by decide),
    dif_pos (show (0 : Fin S32x384.rank) ∈ dot_S32x384_S384x7040_S32x7040_1_0_0_1_n_n.lhsNonContracting by decide)]
  rfl

/-- The right operand's column coordinate is the result's. -/
theorem rhs_1 (i : S32x7040.Idx) (q : dot_S32x384_S384x7040_S32x7040_1_0_0_1_n_n.contr.Idx) :
    (dot_S32x384_S384x7040_S32x7040_1_0_0_1_n_n.rhsIdx i q 1).val = (i 1).val := by
  unfold DotDims.rhsIdx
  rw [dif_neg (show ¬(1 : Fin S384x7040.rank) ∈ dot_S32x384_S384x7040_S32x7040_1_0_0_1_n_n.rhsBatch by decide),
    dif_pos (show (1 : Fin S384x7040.rank) ∈ dot_S32x384_S384x7040_S32x7040_1_0_0_1_n_n.rhsNonContracting by decide)]
  rfl

/-- The product accumulated into the zero array reads, at `(o, n)`, `∑ k, l[o, k] · r[k, n]` over the 384 contracted
    positions. -/
theorem matmul_ix2 (l : FVec Ideal S32x384 .f32) (r : FVec Ideal S384x7040 .f32) (o : Fin 32) (n : Fin 7040) :
    matmul dot_S32x384_S384x7040_S32x7040_1_0_0_1_n_n none l r (constant (F := Ideal) S32x7040 .f32 0x00000000#32) (ix2 o n)
      = ∑ k : Fin 384, l (ix2 o k) * r (ix2 k n) := by
  refine (Ideal.matmul_constant_zero_apply dot_S32x384_S384x7040_S32x7040_1_0_0_1_n_n none l r (ix2 o n)).trans ?_
  rw [← Equiv.sum_comp (contrEquiv1 dot_S32x384_S384x7040_S32x7040_1_0_0_1_n_n 384 rfl rfl).symm]
  refine Finset.sum_congr rfl fun k _ => ?_
  have hk := contrEquiv1_symm_val dot_S32x384_S384x7040_S32x7040_1_0_0_1_n_n 384 rfl rfl k
  have el : dot_S32x384_S384x7040_S32x7040_1_0_0_1_n_n.lhsIdx (ix2 o n) ((contrEquiv1 dot_S32x384_S384x7040_S32x7040_1_0_0_1_n_n 384 rfl rfl).symm k) = ix2 o k :=
    funext fun a => Fin.ext (by
      match a with
      | ⟨0, _⟩ => exact lhs_0 _ _
      | ⟨1, _⟩ => exact (dot_S32x384_S384x7040_S32x7040_1_0_0_1_n_n.lhsIdx_val_of_single rfl _ _).trans hk)
  have er : dot_S32x384_S384x7040_S32x7040_1_0_0_1_n_n.rhsIdx (ix2 o n) ((contrEquiv1 dot_S32x384_S384x7040_S32x7040_1_0_0_1_n_n 384 rfl rfl).symm k) = ix2 k n :=
    funext fun a => Fin.ext (by
      match a with
      | ⟨0, _⟩ => exact (dot_S32x384_S384x7040_S32x7040_1_0_0_1_n_n.rhsIdx_val_of_single rfl _ _).trans hk
      | ⟨1, _⟩ => exact rhs_1 _ _)
  rw [el, er]

/-! ## The body's value at an index -/

/-- The value the body stores, at `(0, o, n)`: the weight block's row `o` against the feature block's column `n`, summed
    over the 384 channels, plus the bias column's entry `o`. The casts that keep a shape are the identity, the cast that
    drops the feature block's leading unit axis reads `(k, n)` at `(0, k, n)`, the bias column is laid along all 7040
    positions, and the cast that adds the result's leading unit axis reads `(0, o, n)` at `(o, n)`. -/
theorem pay_apply (v0 : Vec Ideal S32x384 .f32) (v2 : Vec Ideal S1x384x7040 .f32) (v5 : Vec Ideal S32x1 .f32)
    (o : Fin 32) (n : Fin 7040) :
    k0_pay1 (F := Ideal) v0 v2 v5 (ix3 (0 : Fin 1) o n)
      = (∑ k : Fin 384, v0 (ix2 o k) * v2 (ix3 (0 : Fin 1) k n)) + v5 (ix2 o (0 : Fin 1)) := by
  unfold k0_pay1
  refine (shapeCast_ab_1ab_apply _ shapeCasts_S32x7040_S1x32x7040 (0 : Fin 1) o n).trans ?_
  refine (addf_apply _ _ _).trans ?_
  refine congrArg₂ (· + ·) ?_ ?_
  · refine (matmul_ix2 _ _ o n).trans (Finset.sum_congr rfl fun k _ => ?_)
    rw [shapeCast_self, shapeCast_1ab_ab_apply]
  · refine (broadcastTo_a1_ab_apply _ broadcasts_S32x1_S32x7040 o n).trans ?_
    rw [shapeCast_self]

end Cert.KernelIdeal.Payload

end
-- ==== Proof.Fused.lean ====
/-
  The region's output as ONE function of the three arrays it stages: at batch `b`, padded output channel `o` (32 of
  them: the 20 real channels of the three heads and 12 zero rows) and flat pixel `n` (the 200 × 176 pixels in row-major
  order), row `o` of the fused weight matrix `[32, 384]` against column `(b, ·, n)` of the feature map `[8, 384, 35200]`,
  plus entry `o` of the bias column `[32, 1]`.
-/
import proofs.«142189_g47064251629653_cont_8to1c4_533_11_alg».proof.KernelIdeal
import Idealize.ShloMosaic.PureOps.Ideal
import Idealize.ShloMosaic.Lib.ValueIdx

noncomputable section

open scoped BigOperators

namespace Cert.KernelIdeal.Blocks

open Cert.KernelIdeal Idealize.ShloMosaic Idealize.ShloMosaic.ValueIdx

/-- The fused product at explicit coordinates: `(∑ k, w[o, k] · x3[b, k, n]) + bc[o, 0]`. -/
def fusedAt (x3 : S8x384x35200.Idx → EReal) (w : S32x384.Idx → EReal) (bc : S32x1.Idx → EReal)
    (b : Fin 8) (o : Fin 32) (n : Fin 35200) : EReal :=
  (∑ k : Fin 384, w (ix2 o k) * x3 (ix3 b k n)) + bc (ix2 o (0 : Fin 1))

/-- The same as an array `[8, 32, 35200]`. -/
def fused (x3 : S8x384x35200.Idx → EReal) (w : S32x384.Idx → EReal) (bc : S32x1.Idx → EReal) : S8x32x35200.Idx → EReal :=
  fun i => fusedAt x3 w bc (i 0) (i 1) (i 2)

/-- `fused` read at an index built from coordinates. -/
theorem fused_ix3 (x3 : S8x384x35200.Idx → EReal) (w : S32x384.Idx → EReal) (bc : S32x1.Idx → EReal)
    (b : Fin 8) (o : Fin 32) (n : Fin 35200) : fused x3 w bc (ix3 b o n) = fusedAt x3 w bc b o n := rfl

end Cert.KernelIdeal.Blocks

end
-- ==== Proof.BlocksKernelIdeal.lean ====
/-
  From blocks to the array, for the idealized kernel. The region's grid is `8 × 5`: point `t` is batch `t / 5` and pixel
  block `t % 5` (7040 flat pixels each, 5 · 7040 = 35200 = 200 · 176). At point `t` the body's output buffer ends at the
  weight buffer's rows against the feature buffer's columns plus the bias buffer's entries; the weight and bias buffers
  hold their whole arrays, the feature buffer holds block `(t / 5, 0, t % 5)` of the staged feature map, and the output
  buffer is written back to block `(t / 5, 0, t % 5)` of the output array. So what point `t` writes back is block `t` of
  ONE whole-array function, `fused` of the three staged arrays, and since the 40 blocks tile the output array, the
  array ends holding `fused`.
-/
import proofs.«142189_g47064251629653_cont_8to1c4_533_11_alg».proof.Proof.FrameKernelIdeal
import proofs.«142189_g47064251629653_cont_8to1c4_533_11_alg».proof.Proof.PayloadKernelIdeal
import proofs.«142189_g47064251629653_cont_8to1c4_533_11_alg».proof.Proof.Fused
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the output buffer, read at output channel `o` and lane `n` of the block: the weight
    buffer's row `o` against the feature buffer's column `n`, plus the bias buffer's entry `o`. -/
theorem stored_apply (x : Vec Ideal S1x384x7040 .f32) (w : Vec Ideal S32x384 .f32) (b : Vec Ideal S32x1 .f32) (o : Fin 32) (n : Fin 7040) :
    stored x w b (ix3 (0 : Fin 1) o n) = (∑ k : Fin 384, w (ix2 o k) * x (ix3 (0 : Fin 1) k n)) + b (ix2 o (0 : Fin 1)) := by
  unfold stored
  rw [View.canon_unit_zero zero3]
  simp only [View.ld_unit_zero (S := S1x384x7040) zero3, View.ld_unit_zero (S := S32x384) zero2, View.ld_unit_zero (S := S32x1) zero2]
  exact Cert.KernelIdeal.Payload.pay_apply w x b o n

/-! ## Where the blocks sit -/

/-- The printed index maps over the 40 grid points, point `t` being batch `t / 5` and pixel block `t % 5`: the feature
    map's block and the output's block are at `(t / 5, 0, t % 5)`; the weight matrix and the bias column are one block. -/
theorem where_blocks : ∀ t : Fin cfg0.N,
    win0_0.index t (0 : Fin 3) = t.val / 5 ∧ win0_0.index t (1 : Fin 3) = 0 ∧ win0_0.index t (2 : Fin 3) = t.val % 5
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 5 ∧ win0_3.index t (1 : Fin 3) = 0 ∧ win0_3.index t (2 : Fin 3) = t.val % 5 :=
  (by decide +kernel : ∀ t : Fin grid0.N, _)

/-- The feature map's block at point `t` is the staged array at batch `t / 5`, lanes `7040 (t % 5) …`. -/
theorem block_x (c : Dev nD) (t : Fin cfg0.N) (y : S1x384x7040.Idx) (i : S8x384x35200.Idx)
    (h0 : win0_0.index t (0 : Fin 3) * 1 + 1 * (y 0).val = (i 0).val) (h1 : win0_0.index t (1 : Fin 3) * 384 + 1 * (y 1).val = (i 1).val)
    (h2 : win0_0.index t (2 : Fin 3) * 7040 + 1 * (y 2).val = (i 2).val) :
    (blockAt m c 0 t : Vec Ideal S1x384x7040 .f32) y = (atEntry m c main_v6 : S8x384x35200.Idx → EReal) i := by
  unfold blockAt
  rw [View.read_apply]
  show atEntry m c main_v6 _ = atEntry m c main_v6 _
  congr 1
  funext a
  apply Fin.ext
  match a with
  | ⟨0, _⟩ => exact h0
  | ⟨1, _⟩ => exact h1
  | ⟨2, _⟩ => exact h2

/-- The weight matrix's one block is the staged matrix. -/
theorem block_w (c : Dev nD) (t : Fin cfg0.N) (y : S32x384.Idx) (i : S32x384.Idx)
    (h0 : win0_1.index t (0 : Fin 2) * 32 + 1 * (y 0).val = (i 0).val) (h1 : win0_1.index t (1 : Fin 2) * 384 + 1 * (y 1).val = (i 1).val) :
    (blockAt m c 1 t : Vec Ideal S32x384 .f32) y = (atEntry m c main_v2 : S32x384.Idx → EReal) i := by
  unfold blockAt
  rw [View.read_apply]
  show atEntry m c main_v2 _ = atEntry m c main_v2 _
  congr 1
  funext a
  apply Fin.ext
  match a with
  | ⟨0, _⟩ => exact h0
  | ⟨1, _⟩ => exact h1

/-- The bias column's one block is the staged column. -/
theorem block_b (c : Dev nD) (t : Fin cfg0.N) (y : S32x1.Idx) (i : S32x1.Idx)
    (h0 : win0_2.index t (0 : Fin 2) * 32 + 1 * (y 0).val = (i 0).val) (h1 : win0_2.index t (1 : Fin 2) * 1 + 1 * (y 1).val = (i 1).val) :
    (blockAt m c 2 t : Vec Ideal S32x1 .f32) y = (atEntry m c main_v5 : S32x1.Idx → EReal) i := by
  unfold blockAt
  rw [View.read_apply]
  show atEntry m c main_v5 _ = atEntry m c main_v5 _
  congr 1
  funext a
  apply Fin.ext
  match a with
  | ⟨0, _⟩ => exact h0
  | ⟨1, _⟩ => exact h1

/-! ## What each point writes back, and the whole array -/

/-- Point `t` writes back block `t` of `fused` of the three staged arrays. -/
theorem written_back (c : Dev nD) (t : Fin cfg0.N) :
    (regionData m 0 c).flushed 3 t
      = ((cfg0.win 3).blk t).view.read (Elt Ideal) (fused (atEntry m c main_v6) (atEntry m c main_v2) (atEntry m c main_v5)) := by
  show (cfg0.win 3).cut (grid0.coords t) ((regionData m 0 c).after 3 t) = _
  rw [left3]
  obtain ⟨a0, a1, a2, w0, w1, b0, b1, y0, y1, y2⟩ := where_blocks t
  funext j
  obtain ⟨z, o, n, rfl⟩ : ∃ (z : Fin 1) (o : Fin 32) (n : Fin 7040), j = ix3 z o n := ⟨j 0, j 1, j 2, eq_ix3 j⟩
  obtain rfl : z = 0 := Subsingleton.elim _ _
  refine (stored_apply (blockAt m c 0 t) (blockAt m c 1 t) (blockAt m c 2 t) o n).trans ?_
  rw [View.read_apply]
  show _ = fusedAt _ _ _ _ _ _
  unfold fusedAt
  refine congrArg₂ (· + ·) (Finset.sum_congr rfl fun k _ => congrArg₂ (· * ·) (block_w m c t (ix2 o k) _ ?_ ?_) (block_x m c t (ix3 (0 : Fin 1) k n) _ ?_ ?_ ?_))
    (block_b m c t (ix2 o (0 : Fin 1)) _ ?_ ?_)
  · show win0_1.index t (0 : Fin 2) * 32 + 1 * o.val = win0_3.index t (1 : Fin 3) * 32 + 1 * o.val
    omega
  · show win0_1.index t (1 : Fin 2) * 384 + 1 * k.val = k.val
    omega
  · show win0_0.index t (0 : Fin 3) * 1 + 1 * (0 : Fin 1).val = win0_3.index t (0 : Fin 3) * 1 + 1 * (0 : Fin 1).val
    omega
  · show win0_0.index t (1 : Fin 3) * 384 + 1 * k.val = k.val
    omega
  · show win0_0.index t (2 : Fin 3) * 7040 + 1 * n.val = win0_3.index t (2 : Fin 3) * 7040 + 1 * n.val
    omega
  · show win0_2.index t (0 : Fin 2) * 32 + 1 * o.val = win0_3.index t (1 : Fin 3) * 32 + 1 * o.val
    omega
  · show win0_2.index t (1 : Fin 2) * 1 + 1 * (0 : Fin 1).val = (0 : Fin 1).val
    omega

/-- An index of the output array is in point `t`'s block iff each coordinate is in the block's range on its axis. -/
theorem in_block (t : Fin cfg0.N) (i : S8x32x35200.Idx) :
    i ∈ ((cfg0.win 3).blk t).view.set ↔ ∀ a : Fin 3, win0_3.index t a * S1x32x7040.size a ≤ (i a).val ∧ (i a).val < win0_3.index t a * S1x32x7040.size a + S1x32x7040.size a := by
  show i ∈ ((View.whole main_v7).slice (win0_3.rect t)).set ↔ _
  rw [View.set_slice_whole, Rect.mem_set_unit]
  exact Iff.rfl

/-- Every index `(b, o, n)` of the output array is in the block of point `5 b + n / 7040`. -/
theorem covered (i : S8x32x35200.Idx) : ∃ t : Fin cfg0.N, (cfg0.win 3).flush t = true ∧ i ∈ ((cfg0.win 3).blk t).view.set := by
  have hb : (i 0).val < 8 := (i 0).isLt
  have ho : (i 1).val < 32 := (i 1).isLt
  have hn : (i 2).val < 35200 := (i 2).isLt
  have hN : cfg0.N = 40 := N_0
  refine ⟨⟨(i 0).val * 5 + (i 2).val / 7040, by rw [hN]; omega⟩, flush0_3 _, ?_⟩
  rw [in_block]
  obtain ⟨-, -, -, -, -, -, -, y0, y1, y2⟩ := where_blocks ⟨(i 0).val * 5 + (i 2).val / 7040, by rw [hN]; omega⟩
  intro a
  match a with
  | ⟨0, _⟩ =>
    show win0_3.index _ (0 : Fin 3) * 1 ≤ (i 0).val ∧ (i 0).val < win0_3.index _ (0 : Fin 3) * 1 + 1
    rw [y0]; show ((i 0).val * 5 + (i 2).val / 7040) / 5 * 1 ≤ (i 0).val ∧ (i 0).val < ((i 0).val * 5 + (i 2).val / 7040) / 5 * 1 + 1
    omega
  | ⟨1, _⟩ =>
    show win0_3.index _ (1 : Fin 3) * 32 ≤ (i 1).val ∧ (i 1).val < win0_3.index _ (1 : Fin 3) * 32 + 32
    rw [y1]; omega
  | ⟨2, _⟩ =>
    show win0_3.index _ (2 : Fin 3) * 7040 ≤ (i 2).val ∧ (i 2).val < win0_3.index _ (2 : Fin 3) * 7040 + 7040
    rw [y2]; show ((i 0).val * 5 + (i 2).val / 7040) % 5 * 7040 ≤ (i 2).val ∧ (i 2).val < ((i 0).val * 5 + (i 2).val / 7040) % 5 * 7040 + 7040
    omega

/-- So the output array ends holding `fused` of the three staged arrays. -/
theorem output_array (c : Dev nD) :
    (regionData m 0 c).arrAt 3 cfg0.N = fused (atEntry m c main_v6) (atEntry m c main_v2) (atEntry m c main_v5) :=
  (regionData m 0 c).arrAt_eq_of_cover 3 _ (fun t _ => written_back m c t) covered

end Cert.KernelIdeal.Blocks

end
-- ==== Proof.HostGlue.lean ====
/-
  The host operations of the kernel program, read at an index, on the extended reals.

  Before its one kernel call the program builds three arrays from its arguments. The fused weight matrix
  `wT : [32, 384]` is the three weight matrices `W₁ : [384, 2]`, `W₂ : [384, 14]`, `W₃ : [384, 4]` laid side by side
  along their second axis, transposed, and padded with twelve zero rows: row `o` of it is column `o` of `W₁` for
  `o < 2`, column `o − 2` of `W₂` for `2 ≤ o < 16`, column `o − 16` of `W₃` for `16 ≤ o < 20`. The bias column
  `bcol : [32, 1]` is the three bias vectors laid end to end, padded with twelve zeros and read as a column. The
  feature map `[8, 384, 200, 176]` is re-read row-major as `[8, 384, 35200]`: pixel `(h, w)` sits at position
  `176 · h + w`. After the call the result `[8, 32, 35200]` is re-read as `[8, 32, 200, 176]` and channels `0 … 1`,
  `2 … 15`, `16 … 19` are cut out of it. Each lemma below reads one of these arrays at an index given by its coordinates.
-/
import proofs.«142189_g47064251629653_cont_8to1c4_533_11_alg».proof.KernelIdeal
import Idealize.ShloMosaic.Lib.Pipeline.Value
import Idealize.ShloMosaic.Lib.KernelVsHost
import Idealize.ShloMosaic.Lib.ValueIdx

noncomputable section

namespace Cert.KernelIdeal.Glue

open Cert.KernelIdeal Idealize.ShloMosaic Idealize.ShloMosaic.ValueIdx

variable [Facts]
open Facts₀ Facts

/-! ## The feature map and the result, re-read row-major -/

/-- The feature map re-read as `[8, 384, 35200]`: position `176 · h + w` of the flattened pixel axis is pixel `(h, w)`. -/
theorem x3_apply (x : FVec Ideal S8x384x200x176 .f32) (b : Fin 8) (k : Fin 384) (h : Fin 200) (w : Fin 176) :
    shapeCast S8x384x35200 x shapeCasts_S8x384x200x176_S8x384x35200
        (ix3 b k (⟨h.val * 176 + w.val, by omega⟩ : Fin 35200)) = x (ix4 b k h w) := by
  refine shapeCast_apply x _ _ _ ?_
  rw [Shape.rowMajor_val_four, Shape.rowMajor_val_three]
  show ((b.val * 384 + k.val) * 200 + h.val) * 176 + w.val = (b.val * 384 + k.val) * 35200 + (h.val * 176 + w.val)
  omega

/-- The result `[8, 32, 35200]` re-read as `[8, 32, 200, 176]`: pixel `(h, w)` is position `176 · h + w`. -/
theorem y4_apply (y : FVec Ideal S8x32x35200 .f32) (b : Fin 8) (c : Fin 32) (h : Fin 200) (w : Fin 176) :
    shapeCast S8x32x200x176 y shapeCasts_S8x32x35200_S8x32x200x176 (ix4 b c h w)
      = y (ix3 b c (⟨h.val * 176 + w.val, by omega⟩ : Fin 35200)) := by
  refine shapeCast_apply y _ _ _ ?_
  rw [Shape.rowMajor_val_four, Shape.rowMajor_val_three]
  show (b.val * 32 + c.val) * 35200 + (h.val * 176 + w.val) = ((b.val * 32 + c.val) * 200 + h.val) * 176 + w.val
  omega

/-- Channels `0 … 1` of the re-read result: channel `o` of the slice is channel `o` of the result. -/
theorem out_cls (y : FVec Ideal S8x32x35200 .f32) (b : Fin 8) (o : Fin 2) (h : Fin 200) (w : Fin 176) :
    extractStridedSlice S8x2x200x176 ![0, 0, 0, 0] (shapeCast S8x32x200x176 y shapeCasts_S8x32x35200_S8x32x200x176)
        slices_S8x32x200x176_S8x2x200x176_0_0_0_0 (ix4 b o h w)
      = y (ix3 b (⟨o.val, by omega⟩ : Fin 32) (⟨h.val * 176 + w.val, by omega⟩ : Fin 35200)) := by
  refine (extractStridedSlice_apply _ _ _ (ix4 b o h w) (ix4 b (⟨o.val, by omega⟩ : Fin 32) h w) (fun a => match a with
    | ⟨0, _⟩ => by show b.val = 0 + b.val; omega
    | ⟨1, _⟩ => by show o.val = 0 + o.val; omega
    | ⟨2, _⟩ => by show h.val = 0 + h.val; omega
    | ⟨3, _⟩ => by show w.val = 0 + w.val; omega)).trans ?_
  exact y4_apply y b _ h w

/-- Channels `2 … 15` of the re-read result: channel `o` of the slice is channel `o + 2` of the result. -/
theorem out_reg (y : FVec Ideal S8x32x35200 .f32) (b : Fin 8) (o : Fin 14) (h : Fin 200) (w : Fin 176) :
    extractStridedSlice S8x14x200x176 ![0, 2, 0, 0] (shapeCast S8x32x200x176 y shapeCasts_S8x32x35200_S8x32x200x176)
        slices_S8x32x200x176_S8x14x200x176_0_2_0_0 (ix4 b o h w)
      = y (ix3 b (⟨o.val + 2, by omega⟩ : Fin 32) (⟨h.val * 176 + w.val, by omega⟩ : Fin 35200)) := by
  refine (extractStridedSlice_apply _ _ _ (ix4 b o h w) (ix4 b (⟨o.val + 2, by omega⟩ : Fin 32) h w) (fun a => match a with
    | ⟨0, _⟩ => by show b.val = 0 + b.val; omega
    | ⟨1, _⟩ => by show o.val + 2 = 2 + o.val; omega
    | ⟨2, _⟩ => by show h.val = 0 + h.val; omega
    | ⟨3, _⟩ => by show w.val = 0 + w.val; omega)).trans ?_
  exact y4_apply y b _ h w

/-- Channels `16 … 19` of the re-read result: channel `o` of the slice is channel `o + 16` of the result. -/
theorem out_dir (y : FVec Ideal S8x32x35200 .f32) (b : Fin 8) (o : Fin 4) (h : Fin 200) (w : Fin 176) :
    extractStridedSlice S8x4x200x176 ![0, 16, 0, 0] (shapeCast S8x32x200x176 y shapeCasts_S8x32x35200_S8x32x200x176)
        slices_S8x32x200x176_S8x4x200x176_0_16_0_0 (ix4 b o h w)
      = y (ix3 b (⟨o.val + 16, by omega⟩ : Fin 32) (⟨h.val * 176 + w.val, by omega⟩ : Fin 35200)) := by
  refine (extractStridedSlice_apply _ _ _ (ix4 b o h w) (ix4 b (⟨o.val + 16, by omega⟩ : Fin 32) h w) (fun a => match a with
    | ⟨0, _⟩ => by show b.val = 0 + b.val; omega
    | ⟨1, _⟩ => by show o.val + 16 = 16 + o.val; omega
    | ⟨2, _⟩ => by show h.val = 0 + h.val; omega
    | ⟨3, _⟩ => by show w.val = 0 + w.val; omega)).trans ?_
  exact y4_apply y b _ h w

/-! ## The fused weight matrix -/

/-- The fused weight matrix `[32, 384]`: `W₁`, `W₂`, `W₃` side by side along their second axis, transposed, and
    padded below with twelve rows of the padding value (zero). -/
def wT (W1 : FVec Ideal S384x2 .f32) (W2 : FVec Ideal S384x14 .f32) (W3 : FVec Ideal S384x4 .f32) : FVec Ideal S32x384 .f32 :=
  pad S32x384 ![0, 0] ![12, 0] ![0, 0]
    (transpose S20x384 [1, 0]
      (concatenate S384x20 1 [⟨S384x2, W1⟩, ⟨S384x14, W2⟩, ⟨S384x4, W3⟩] concatenates_S384x2_S384x14_S384x4_S384x20_d1)
      transposes_S384x20_S20x384_1_0)
    (sitofp .f32 (constantI S_ 32 0#32)) pads_S20x384_S32x384_0120_000 h_S_

variable (W1 : FVec Ideal S384x2 .f32) (W2 : FVec Ideal S384x14 .f32) (W3 : FVec Ideal S384x4 .f32)

/-- Row `c < 20` of the fused matrix is column `c` of the three matrices side by side: the padding adds rows only
    below, and the transposition swaps the two coordinates. -/
theorem wT_row (c : Fin 20) (k : Fin 384) :
    wT W1 W2 W3 (ix2 (⟨c.val, by omega⟩ : Fin 32) k)
      = concatenate S384x20 1 [⟨S384x2, W1⟩, ⟨S384x14, W2⟩, ⟨S384x4, W3⟩] concatenates_S384x2_S384x14_S384x4_S384x20_d1 (ix2 k c) := by
  unfold wT
  refine (pad_apply_of_inside _ _ _ _ _ pads_S20x384_S32x384_0120_000 h_S_ (ix2 (⟨c.val, by omega⟩ : Fin 32) k) (ix2 c k)
    (fun a => match a with
      | ⟨0, _⟩ => by show c.val = 0 + c.val * (0 + 1); omega
      | ⟨1, _⟩ => by show k.val = 0 + k.val * (0 + 1); omega)).trans ?_
  exact transpose_apply [1, 0] _ transposes_S384x20_S20x384_1_0 (ix2 c k) (ix2 k c) (fun b => match b with
    | ⟨0, _⟩ => rfl
    | ⟨1, _⟩ => rfl)

/-- Rows `0 … 1` of the fused matrix are the columns of `W₁`. -/
theorem wT_cls (o : Fin 2) (k : Fin 384) :
    wT W1 W2 W3 (ix2 (⟨o.val, by omega⟩ : Fin 32) k) = W1 (ix2 k o) := by
  refine (wT_row W1 W2 W3 (⟨o.val, by omega⟩ : Fin 20) k).trans ?_
  exact concatenate_apply_piece (t := S384x20) (1 : Fin 2) [⟨S384x2, W1⟩, ⟨S384x14, W2⟩, ⟨S384x4, W3⟩] concatenates_S384x2_S384x14_S384x4_S384x20_d1
    (ix2 k (⟨o.val, by omega⟩ : Fin 20)) 0 (by show (0 : Nat) < 3; omega) S384x2 W1 rfl rfl
    0 rfl (ix2 k o)
    (fun b => match b with
      | ⟨0, _⟩ => fun _ => rfl
      | ⟨1, _⟩ => fun hb => absurd rfl hb)
    (by show 0 + o.val = o.val; omega)

/-- Rows `2 … 15` of the fused matrix are the columns of `W₂`. -/
theorem wT_reg (o : Fin 14) (k : Fin 384) :
    wT W1 W2 W3 (ix2 (⟨o.val + 2, by omega⟩ : Fin 32) k) = W2 (ix2 k o) := by
  refine (wT_row W1 W2 W3 (⟨o.val + 2, by omega⟩ : Fin 20) k).trans ?_
  exact concatenate_apply_piece (t := S384x20) (1 : Fin 2) [⟨S384x2, W1⟩, ⟨S384x14, W2⟩, ⟨S384x4, W3⟩] concatenates_S384x2_S384x14_S384x4_S384x20_d1
    (ix2 k (⟨o.val + 2, by omega⟩ : Fin 20)) 1 (by show (1 : Nat) < 3; omega) S384x14 W2 rfl rfl
    2 rfl (ix2 k o)
    (fun b => match b with
      | ⟨0, _⟩ => fun _ => rfl
      | ⟨1, _⟩ => fun hb => absurd rfl hb)
    (by show 2 + o.val = o.val + 2; omega)

/-- Rows `16 … 19` of the fused matrix are the columns of `W₃`. -/
theorem wT_dir (o : Fin 4) (k : Fin 384) :
    wT W1 W2 W3 (ix2 (⟨o.val + 16, by omega⟩ : Fin 32) k) = W3 (ix2 k o) := by
  refine (wT_row W1 W2 W3 (⟨o.val + 16, by omega⟩ : Fin 20) k).trans ?_
  exact concatenate_apply_piece (t := S384x20) (1 : Fin 2) [⟨S384x2, W1⟩, ⟨S384x14, W2⟩, ⟨S384x4, W3⟩] concatenates_S384x2_S384x14_S384x4_S384x20_d1
    (ix2 k (⟨o.val + 16, by omega⟩ : Fin 20)) 2 (by show (2 : Nat) < 3; omega) S384x4 W3 rfl rfl
    16 rfl (ix2 k o)
    (fun b => match b with
      | ⟨0, _⟩ => fun _ => rfl
      | ⟨1, _⟩ => fun hb => absurd rfl hb)
    (by show 16 + o.val = o.val + 16; omega)

/-! ## The bias column -/

/-- The bias column `[32, 1]`: `b₁`, `b₂`, `b₃` end to end, padded with twelve entries of the padding value (zero),
    read as a column. -/
def bcol (b1 : FVec Ideal S2 .f32) (b2 : FVec Ideal S14 .f32) (b3 : FVec Ideal S4 .f32) : FVec Ideal S32x1 .f32 :=
  broadcastInDim S32x1 ![0] bcast_S32_S32x1_0
    (pad S32 ![0] ![12] ![0]
      (concatenate S20 0 [⟨S2, b1⟩, ⟨S14, b2⟩, ⟨S4, b3⟩] concatenates_S2_S14_S4_S20_d0)
      (sitofp .f32 (constantI S_ 32 0#32)) pads_S20_S32_0120 h_S_)

variable (b1 : FVec Ideal S2 .f32) (b2 : FVec Ideal S14 .f32) (b3 : FVec Ideal S4 .f32)

/-- Entry `c < 20` of the bias column is entry `c` of the three bias vectors end to end: the column's one entry per
    row is the padded vector's, and the padding adds entries only at the end. -/
theorem bcol_row (c : Fin 20) :
    bcol b1 b2 b3 (ix2 (⟨c.val, by omega⟩ : Fin 32) (0 : Fin 1))
      = concatenate S20 0 [⟨S2, b1⟩, ⟨S14, b2⟩, ⟨S4, b3⟩] concatenates_S2_S14_S4_S20_d0 (ix1 c) := by
  unfold bcol
  refine (broadcastInDim_apply _ bcast_S32_S32x1_0 _ (ix2 (⟨c.val, by omega⟩ : Fin 32) (0 : Fin 1))
    (ix1 (⟨c.val, by omega⟩ : Fin 32)) (fun a => match a with
      | ⟨0, _⟩ => by show c.val = if (32 : Nat) = 1 then 0 else c.val; rw [if_neg (by decide)])).trans ?_
  exact pad_apply_of_inside _ _ _ _ _ pads_S20_S32_0120 h_S_ (ix1 (⟨c.val, by omega⟩ : Fin 32)) (ix1 c)
    (fun a => match a with
      | ⟨0, _⟩ => by show c.val = 0 + c.val * (0 + 1); omega)

/-- Entries `0 … 1` of the bias column are `b₁`. -/
theorem bcol_cls (o : Fin 2) :
    bcol b1 b2 b3 (ix2 (⟨o.val, by omega⟩ : Fin 32) (0 : Fin 1)) = b1 (ix1 o) := by
  refine (bcol_row b1 b2 b3 (⟨o.val, by omega⟩ : Fin 20)).trans ?_
  exact concatenate_apply_piece (t := S20) (0 : Fin 1) [⟨S2, b1⟩, ⟨S14, b2⟩, ⟨S4, b3⟩] concatenates_S2_S14_S4_S20_d0
    (ix1 (⟨o.val, by omega⟩ : Fin 20)) 0 (by show (0 : Nat) < 3; omega) S2 b1 rfl rfl
    0 rfl (ix1 o)
    (fun b => match b with
      | ⟨0, _⟩ => fun hb => absurd rfl hb)
    (by show 0 + o.val = o.val; omega)

/-- Entries `2 … 15` of the bias column are `b₂`. -/
theorem bcol_reg (o : Fin 14) :
    bcol b1 b2 b3 (ix2 (⟨o.val + 2, by omega⟩ : Fin 32) (0 : Fin 1)) = b2 (ix1 o) := by
  refine (bcol_row b1 b2 b3 (⟨o.val + 2, by omega⟩ : Fin 20)).trans ?_
  exact concatenate_apply_piece (t := S20) (0 : Fin 1) [⟨S2, b1⟩, ⟨S14, b2⟩, ⟨S4, b3⟩] concatenates_S2_S14_S4_S20_d0
    (ix1 (⟨o.val + 2, by omega⟩ : Fin 20)) 1 (by show (1 : Nat) < 3; omega) S14 b2 rfl rfl
    2 rfl (ix1 o)
    (fun b => match b with
      | ⟨0, _⟩ => fun hb => absurd rfl hb)
    (by show 2 + o.val = o.val + 2; omega)

/-- Entries `16 … 19` of the bias column are `b₃`. -/
theorem bcol_dir (o : Fin 4) :
    bcol b1 b2 b3 (ix2 (⟨o.val + 16, by omega⟩ : Fin 32) (0 : Fin 1)) = b3 (ix1 o) := by
  refine (bcol_row b1 b2 b3 (⟨o.val + 16, by omega⟩ : Fin 20)).trans ?_
  exact concatenate_apply_piece (t := S20) (0 : Fin 1) [⟨S2, b1⟩, ⟨S14, b2⟩, ⟨S4, b3⟩] concatenates_S2_S14_S4_S20_d0
    (ix1 (⟨o.val + 16, by omega⟩ : Fin 20)) 2 (by show (2 : Nat) < 3; omega) S4 b3 rfl rfl
    16 rfl (ix1 o)
    (fun b => match b with
      | ⟨0, _⟩ => fun hb => absurd rfl hb)
    (by show 16 + o.val = o.val + 16; omega)

end Cert.KernelIdeal.Glue

end
-- ==== Proof.AroundKernelIdeal.lean ====
/-
  What the region's arrays hold when the region is entered, and what the result buffers hold after the host operations
  that follow it, on the extended reals.

  When the region is entered the weight buffer holds the fused weight matrix `[32, 384]` (the three weight matrices side
  by side, transposed, twelve zero rows below), the bias buffer holds the bias column `[32, 1]` (the three bias vectors
  end to end, twelve zeros after them, as a column), and the feature buffer holds the feature map re-read row-major as
  `[8, 384, 35200]`: each is the host operations before the region applied to the argument arrays as launched. After the
  region each of the three results is the region's output array `[8, 32, 35200]` re-read as `[8, 32, 200, 176]` and cut
  to its channels: `0 … 1`, `2 … 15`, `16 … 19`.
-/
import proofs.«142189_g47064251629653_cont_8to1c4_533_11_alg».proof.Proof.FrameKernelIdeal
import proofs.«142189_g47064251629653_cont_8to1c4_533_11_alg».proof.Proof.HostGlue

set_option maxRecDepth 16384

noncomputable section

namespace Cert.KernelIdeal.Around

open Cert.KernelIdeal Cert.KernelIdeal.Gen Cert.KernelIdeal.Hand Idealize.ShloMosaic Idealize.ShloMosaic.TcCoe Idealize.SL.Sem
open Idealize.ShloMosaic.StableHlo

variable (m : (ℓ : Loc nD τ sig) → Buf (Elt Ideal) ℓ) (c : Dev nD)

/-! ## The three input arrays when the region is entered -/

/-- The weight buffer holds the fused weight matrix of the three weight arguments. -/
theorem entry_w : (atEntry m c main_v2 : S32x384.Idx → EReal)
    = Glue.wT (m ((c : Thread nD τ).loc main_arg1)) (m ((c : Thread nD τ).loc main_arg3)) (m ((c : Thread nD τ).loc main_arg5)) := by
  unfold Glue.wT
  dsimp only [atEntry, entry]
  simp only [before, hostOps0, hostOps0_1, hostOps0_2, hostOps0_3, hostOps0_4, List.flatten_cons, List.flatten_nil,
    List.append_nil, List.cons_append, List.nil_append]
  after_results
  rfl

/-- The bias buffer holds the bias column of the three bias arguments. -/
theorem entry_b : (atEntry m c main_v5 : S32x1.Idx → EReal)
    = Glue.bcol (m ((c : Thread nD τ).loc main_arg2)) (m ((c : Thread nD τ).loc main_arg4)) (m ((c : Thread nD τ).loc main_arg6)) := by
  unfold Glue.bcol
  dsimp only [atEntry, entry]
  simp only [before, hostOps0, hostOps0_1, hostOps0_2, hostOps0_3, hostOps0_4, List.flatten_cons, List.flatten_nil,
    List.append_nil, List.cons_append, List.nil_append]
  after_results
  rfl

/-- The feature buffer holds the feature map re-read row-major with its two pixel axes flattened. -/
theorem entry_x3 : (atEntry m c main_v6 : S8x384x35200.Idx → EReal)
    = shapeCast S8x384x35200 (m ((c : Thread nD τ).loc main_arg0)) shapeCasts_S8x384x200x176_S8x384x35200 := by
  dsimp only [atEntry, entry]
  simp only [before, hostOps0, hostOps0_1, hostOps0_2, hostOps0_3, hostOps0_4, List.flatten_cons, List.flatten_nil,
    List.append_nil, List.cons_append, List.nil_append]
  after_results
  rfl

/-! ## The three results after the region

The host operations after the region read only the region's output array, the fourth window's, which the region leaves
at what the pipeline wrote back; every other buffer is as the region found it. -/

/-- The first result is channels `0 … 1` of the region's output array re-read as `[8, 32, 200, 176]`. -/
theorem result_cls : (Pipeline.afterTail₀ cfgs (regionData m) 0 (entry m) [hostOps1] c main_v9 : S8x2x200x176.Idx → EReal)
    = extractStridedSlice S8x2x200x176 ![0, 0, 0, 0]
        (shapeCast S8x32x200x176 ((regionData m 0 c).arrAt 3 cfg0.N : S8x32x35200.Idx → EReal) shapeCasts_S8x32x35200_S8x32x200x176)
        slices_S8x32x200x176_S8x2x200x176_0_0_0_0 := by
  unfold Pipeline.afterTail₀
  show StableHlo.after hostOps1 _ (Proc.devRef .tc main_v9) = _
  after_results
  show extractStridedSlice S8x2x200x176 ![0, 0, 0, 0]
      (shapeCast S8x32x200x176
        (Pipeline.withArrays spec0 c (entry m c) (fun w => (regionData m 0 c).arrAt w cfg0.N) (Proc.devRef .tc (Pipeline.arrRef spec0 3)))
        shapeCasts_S8x32x35200_S8x32x200x176)
      slices_S8x32x200x176_S8x2x200x176_0_0_0_0 = _
  rw [Pipeline.withArrays_arr spec0 launch0.win.arr_inj c _ _ 3]

/-- The second result is channels `2 … 15` of the region's output array re-read as `[8, 32, 200, 176]`. -/
theorem result_reg : (Pipeline.afterTail₀ cfgs (regionData m) 0 (entry m) [hostOps1] c main_v10 : S8x14x200x176.Idx → EReal)
    = extractStridedSlice S8x14x200x176 ![0, 2, 0, 0]
        (shapeCast S8x32x200x176 ((regionData m 0 c).arrAt 3 cfg0.N : S8x32x35200.Idx → EReal) shapeCasts_S8x32x35200_S8x32x200x176)
        slices_S8x32x200x176_S8x14x200x176_0_2_0_0 := by
  unfold Pipeline.afterTail₀
  show StableHlo.after hostOps1 _ (Proc.devRef .tc main_v10) = _
  after_results
  show extractStridedSlice S8x14x200x176 ![0, 2, 0, 0]
      (shapeCast S8x32x200x176
        (Pipeline.withArrays spec0 c (entry m c) (fun w => (regionData m 0 c).arrAt w cfg0.N) (Proc.devRef .tc (Pipeline.arrRef spec0 3)))
        shapeCasts_S8x32x35200_S8x32x200x176)
      slices_S8x32x200x176_S8x14x200x176_0_2_0_0 = _
  rw [Pipeline.withArrays_arr spec0 launch0.win.arr_inj c _ _ 3]

/-- The third result is channels `16 … 19` of the region's output array re-read as `[8, 32, 200, 176]`. -/
theorem result_dir : (Pipeline.afterTail₀ cfgs (regionData m) 0 (entry m) [hostOps1] c main_v11 : S8x4x200x176.Idx → EReal)
    = extractStridedSlice S8x4x200x176 ![0, 16, 0, 0]
        (shapeCast S8x32x200x176 ((regionData m 0 c).arrAt 3 cfg0.N : S8x32x35200.Idx → EReal) shapeCasts_S8x32x35200_S8x32x200x176)
        slices_S8x32x200x176_S8x4x200x176_0_16_0_0 := by
  unfold Pipeline.afterTail₀
  show StableHlo.after hostOps1 _ (Proc.devRef .tc main_v11) = _
  after_results
  show extractStridedSlice S8x4x200x176 ![0, 16, 0, 0]
      (shapeCast S8x32x200x176
        (Pipeline.withArrays spec0 c (entry m c) (fun w => (regionData m 0 c).arrAt w cfg0.N) (Proc.devRef .tc (Pipeline.arrRef spec0 3)))
        shapeCasts_S8x32x35200_S8x32x200x176)
      slices_S8x32x200x176_S8x4x200x176_0_16_0_0 = _
  rw [Pipeline.withArrays_arr spec0 launch0.win.arr_inj c _ _ 3]

end Cert.KernelIdeal.Around

end
-- ==== Proof.Spec.lean ====
/-
  The three detection heads as ONE function of the argument arrays, on the extended reals.

  A head is a 1×1 convolution over an NCHW feature map `x : [8, 384, 200, 176]` with a weight matrix `W : [384, O]` and a
  bias `bv : [O]`: at batch `b`, output channel `o` and pixel `(h, w)` it is the sum over the 384 input channels `k` of
  `x[b, k, h, w] · W[k, o]`, plus `bv[o]`. The three heads of the program differ only in `O` (2, 14 and 4) and in which
  weight and bias arrays they take. Both programs are compared against this function; nothing here mentions a program.
-/
import Idealize.ShloMosaic.PureOps.Ideal
import Idealize.ShloMosaic.Lib.ValueIdx

noncomputable section

open scoped BigOperators

namespace Cert.Heads

open Idealize.ShloMosaic Idealize.ShloMosaic.ValueIdx

/-- One head at explicit coordinates: `(∑ k, x[b, k, h, w] · W[k, o]) + bv[o]`. -/
def head {O : Nat} (x : (⟨4, ![8, 384, 200, 176]⟩ : Shape).Idx → EReal) (W : (⟨2, ![384, O]⟩ : Shape).Idx → EReal)
    (bv : (⟨1, ![O]⟩ : Shape).Idx → EReal) (b : Fin 8) (o : Fin O) (h : Fin 200) (w : Fin 176) : EReal :=
  (∑ k : Fin 384, x (ix4 b k h w) * W (ix2 k o)) + bv (ix1 o)

/-- The head as an array `[8, O, 200, 176]`: `head` at the index's four coordinates. -/
def headArr {O : Nat} (x : (⟨4, ![8, 384, 200, 176]⟩ : Shape).Idx → EReal) (W : (⟨2, ![384, O]⟩ : Shape).Idx → EReal)
    (bv : (⟨1, ![O]⟩ : Shape).Idx → EReal) : (⟨4, ![8, O, 200, 176]⟩ : Shape).Idx → EReal :=
  fun i => head x W bv (i 0) (i 1) (i 2) (i 3)

/-- `headArr` read at an index built from coordinates. -/
theorem headArr_ix4 {O : Nat} (x : (⟨4, ![8, 384, 200, 176]⟩ : Shape).Idx → EReal) (W : (⟨2, ![384, O]⟩ : Shape).Idx → EReal)
    (bv : (⟨1, ![O]⟩ : Shape).Idx → EReal) (b : Fin 8) (o : Fin O) (h : Fin 200) (w : Fin 176) :
    headArr x W bv (ix4 b o h w) = head x W bv b o h w := rfl

end Cert.Heads

end
-- ==== Proof.HeadsOfFused.lean ====
/-
  The kernel program's three results are the three detection heads.

  The kernel program computes all three heads in one fused product: the feature map `x : [8, 384, 200, 176]` is re-read
  row-major as `[8, 384, 35200]`, the three weight matrices are laid side by side, transposed and padded to one matrix
  `[32, 384]`, the three bias vectors are laid end to end and padded to one column `[32, 1]`; the fused result
  `[8, 32, 35200]`, at `(b, o', n)`, is `(∑ k, w[o', k] · x3[b, k, n]) + bc[o', 0]`. Re-read as `[8, 32, 200, 176]` and cut
  into channels `0 … 1`, `2 … 15` and `16 … 19`, it gives the three results. Index by index each is a head of the
  specification, `(∑ k, x[b, k, h, w] · W[k, o]) + bv[o]`: the re-readings and the cuts only rename indices, the padded rows
  are never read, and the two summands differ by the order of a product of two extended reals.
-/
import proofs.«142189_g47064251629653_cont_8to1c4_533_11_alg».proof.Proof.Spec
import proofs.«142189_g47064251629653_cont_8to1c4_533_11_alg».proof.Proof.Fused
import proofs.«142189_g47064251629653_cont_8to1c4_533_11_alg».proof.Proof.HostGlue
import proofs.«142189_g47064251629653_cont_8to1c4_533_11_alg».proof.Proof.Gen.KernelIdeal

noncomputable section

open scoped BigOperators

namespace Cert.KernelIdeal.Heads

open Cert.KernelIdeal Idealize.ShloMosaic Idealize.ShloMosaic.ValueIdx

variable [Facts]
open Facts₀ Facts

/-! ## One channel of the fused product is one channel of a head -/

/-- The law that joins the two programs. Let row `o'` of a fused weight matrix `w : [32, 384]` be column `o` of a head's
    weight matrix `W : [384, O]`, and entry `o'` of a bias column `bc : [32, 1]` be entry `o` of the head's bias. Then the
    fused product over the flattened feature map, at channel `o'` and flat pixel `176 · h + w`, is the head at channel `o`
    and pixel `(h, w)`: the flattened map at `(b, k, 176 · h + w)` is the map at `(b, k, h, w)`, and the fused product's
    summand `w[o', k] · x[b, k, h, w]` is the head's `x[b, k, h, w] · W[k, o]` because multiplication of extended reals is
    commutative. -/
theorem fusedAt_eq_head {O : Nat} (x : FVec Ideal S8x384x200x176 .f32) (W : (⟨2, ![384, O]⟩ : Shape).Idx → EReal)
    (bv : (⟨1, ![O]⟩ : Shape).Idx → EReal) (w32 : S32x384.Idx → EReal) (bc : S32x1.Idx → EReal) (o : Fin O) (o' : Fin 32)
    (hw : ∀ k : Fin 384, w32 (ix2 o' k) = W (ix2 k o)) (hb : bc (ix2 o' (0 : Fin 1)) = bv (ix1 o))
    (b : Fin 8) (h : Fin 200) (w : Fin 176) :
    Blocks.fusedAt (shapeCast S8x384x35200 x shapeCasts_S8x384x200x176_S8x384x35200) w32 bc b o'
        (⟨h.val * 176 + w.val, by omega⟩ : Fin 35200)
      = Cert.Heads.head x W bv b o h w := by
  unfold Blocks.fusedAt Cert.Heads.head
  refine congrArg₂ (· + ·) (Finset.sum_congr rfl fun k _ => ?_) hb
  rw [hw k, Glue.x3_apply x b k h w]
  exact mul_comm _ _

/-! ## The three slices of the fused result are the three heads -/

/-- Channels `0 … 1` of the fused result, re-read as `[8, 32, 200, 176]`, are the first head: weights `W₁`, bias `b₁`. -/
theorem cls_eq (x : FVec Ideal S8x384x200x176 .f32) (W1 : FVec Ideal S384x2 .f32) (W2 : FVec Ideal S384x14 .f32)
    (W3 : FVec Ideal S384x4 .f32) (b1 : FVec Ideal S2 .f32) (b2 : FVec Ideal S14 .f32) (b3 : FVec Ideal S4 .f32) :
    extractStridedSlice S8x2x200x176 ![0, 0, 0, 0]
        (shapeCast S8x32x200x176 (Blocks.fused (shapeCast S8x384x35200 x shapeCasts_S8x384x200x176_S8x384x35200) (Glue.wT W1 W2 W3) (Glue.bcol b1 b2 b3))
          shapeCasts_S8x32x35200_S8x32x200x176)
        slices_S8x32x200x176_S8x2x200x176_0_0_0_0
      = Cert.Heads.headArr x W1 b1 := by
  funext i
  obtain ⟨b, o, h, w, rfl⟩ : ∃ (b : Fin 8) (o : Fin 2) (h : Fin 200) (w : Fin 176), i = ix4 b o h w :=
    ⟨i 0, i 1, i 2, i 3, eq_ix4 i⟩
  refine (Glue.out_cls _ b o h w).trans ?_
  refine (Blocks.fused_ix3 _ _ _ b _ _).trans ?_
  exact fusedAt_eq_head x W1 b1 _ _ o _ (fun k => Glue.wT_cls W1 W2 W3 o k) (Glue.bcol_cls b1 b2 b3 o) b h w

/-- Channels `2 … 15` of the fused result are the second head: weights `W₂`, bias `b₂`. -/
theorem reg_eq (x : FVec Ideal S8x384x200x176 .f32) (W1 : FVec Ideal S384x2 .f32) (W2 : FVec Ideal S384x14 .f32)
    (W3 : FVec Ideal S384x4 .f32) (b1 : FVec Ideal S2 .f32) (b2 : FVec Ideal S14 .f32) (b3 : FVec Ideal S4 .f32) :
    extractStridedSlice S8x14x200x176 ![0, 2, 0, 0]
        (shapeCast S8x32x200x176 (Blocks.fused (shapeCast S8x384x35200 x shapeCasts_S8x384x200x176_S8x384x35200) (Glue.wT W1 W2 W3) (Glue.bcol b1 b2 b3))
          shapeCasts_S8x32x35200_S8x32x200x176)
        slices_S8x32x200x176_S8x14x200x176_0_2_0_0
      = Cert.Heads.headArr x W2 b2 := by
  funext i
  obtain ⟨b, o, h, w, rfl⟩ : ∃ (b : Fin 8) (o : Fin 14) (h : Fin 200) (w : Fin 176), i = ix4 b o h w :=
    ⟨i 0, i 1, i 2, i 3, eq_ix4 i⟩
  refine (Glue.out_reg _ b o h w).trans ?_
  refine (Blocks.fused_ix3 _ _ _ b _ _).trans ?_
  exact fusedAt_eq_head x W2 b2 _ _ o _ (fun k => Glue.wT_reg W1 W2 W3 o k) (Glue.bcol_reg b1 b2 b3 o) b h w

/-- Channels `16 … 19` of the fused result are the third head: weights `W₃`, bias `b₃`. -/
theorem dir_eq (x : FVec Ideal S8x384x200x176 .f32) (W1 : FVec Ideal S384x2 .f32) (W2 : FVec Ideal S384x14 .f32)
    (W3 : FVec Ideal S384x4 .f32) (b1 : FVec Ideal S2 .f32) (b2 : FVec Ideal S14 .f32) (b3 : FVec Ideal S4 .f32) :
    extractStridedSlice S8x4x200x176 ![0, 16, 0, 0]
        (shapeCast S8x32x200x176 (Blocks.fused (shapeCast S8x384x35200 x shapeCasts_S8x384x200x176_S8x384x35200) (Glue.wT W1 W2 W3) (Glue.bcol b1 b2 b3))
          shapeCasts_S8x32x35200_S8x32x200x176)
        slices_S8x32x200x176_S8x4x200x176_0_16_0_0
      = Cert.Heads.headArr x W3 b3 := by
  funext i
  obtain ⟨b, o, h, w, rfl⟩ : ∃ (b : Fin 8) (o : Fin 4) (h : Fin 200) (w : Fin 176), i = ix4 b o h w :=
    ⟨i 0, i 1, i 2, i 3, eq_ix4 i⟩
  refine (Glue.out_dir _ b o h w).trans ?_
  refine (Blocks.fused_ix3 _ _ _ b _ _).trans ?_
  exact fusedAt_eq_head x W3 b3 _ _ o _ (fun k => Glue.wT_dir W1 W2 W3 o k) (Glue.bcol_dir b1 b2 b3 o) b h w

end Cert.KernelIdeal.Heads

end
-- ==== Proof.RefHeads.lean ====
/-
  The reference program computes the three detection heads.

  Each head of the reference is a chain of five array operations: the feature map `x : [8, 384, 200, 176]` is permuted to
  channels-last `[8, 200, 176, 384]`, contracted over its 384 channels with a weight matrix `W : [384, O]`, a bias
  `bv : [O]` is broadcast over the batch and the pixels and added, and the result `[8, 200, 176, O]` is permuted back to
  channels-first `[8, O, 200, 176]`. Read at an index `(b, o, h, w)` of the result, the two permutations cancel and what
  remains is `(∑ k, x[b, k, h, w] · W[k, o]) + bv[o]` on the extended reals: the specification's `Cert.Heads.headArr`.
  The three heads differ only in `O` (2, 14, 4) and in the weight and bias arrays; the argument is the same three times.
  The last theorem restates the reference's run with each result written as `headArr` of the argument arrays.
-/
import proofs.«142189_g47064251629653_cont_8to1c4_533_11_alg».proof.Proof.Spec
import proofs.«142189_g47064251629653_cont_8to1c4_533_11_alg».proof.Proof.Gen.ReferenceIdeal.Read

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The first head: two output channels -/

/-- Through the outer permutation, the contraction's left index and the inner permutation, the feature map is read
    at `(b, k, h, w)`. -/
theorem xidx_v5 (i : S8x2x200x176.Idx) (k : Fin 384) :
    Read.idx_main_v0 (Read.lidx_main_v1 (Read.idx_main_v5 i) k) = ix4 (i 0) k (i 2) (i 3) :=
  funext fun a => Fin.ext (by
    match a with
    | ⟨0, _⟩ => rfl
    | ⟨1, _⟩ => rfl
    | ⟨2, _⟩ => rfl
    | ⟨3, _⟩ => rfl)

/-- The weight matrix is read at `(k, o)`. -/
theorem widx_v5 (i : S8x2x200x176.Idx) (k : Fin 384) :
    Read.ridx_main_v1 (Read.idx_main_v5 i) k = ix2 k (i 1) :=
  funext fun a => Fin.ext (by
    match a with
    | ⟨0, _⟩ => rfl
    | ⟨1, _⟩ => rfl)

/-- Through the two broadcasts, the bias is read at `o`. -/
theorem bidx_v5 (i : S8x2x200x176.Idx) :
    Read.idx_main_v2 (Read.idx_main_v3 (Read.idx_main_v5 i)) = ix1 (i 1) :=
  funext fun a => Fin.ext (by
    match a with
    | ⟨0, _⟩ => rfl)

/-- The reference's first result is the head with weights `x1` and bias `x2`. -/
theorem val_main_v5_head (x0 : (⟨S8x384x200x176, .f32⟩ : BufTy).Contents (Elt Ideal))
    (x1 : (⟨S384x2, .f32⟩ : BufTy).Contents (Elt Ideal)) (x2 : (⟨S2, .f32⟩ : BufTy).Contents (Elt Ideal)) :
    Read.val_main_v5 (F := Ideal) x0 x1 x2 = Cert.Heads.headArr x0 x1 x2 := by
  funext i
  rw [Read.val_main_v5_apply, Read.val_main_v4_apply, Read.val_main_v1_apply, Read.val_main_v3_apply,
    Read.val_main_v2_apply]
  simp only [Read.val_main_v0_apply, xidx_v5, widx_v5, bidx_v5, Ideal.addf_def]
  rfl

/-! ## The second head: fourteen output channels -/

/-- Through the outer permutation, the contraction's left index and the inner permutation, the feature map is read
    at `(b, k, h, w)`. -/
theorem xidx_v10 (i : S8x14x200x176.Idx) (k : Fin 384) :
    Read.idx_main_v0 (Read.lidx_main_v6 (Read.idx_main_v10 i) k) = ix4 (i 0) k (i 2) (i 3) :=
  funext fun a => Fin.ext (by
    match a with
    | ⟨0, _⟩ => rfl
    | ⟨1, _⟩ => rfl
    | ⟨2, _⟩ => rfl
    | ⟨3, _⟩ => rfl)

/-- The weight matrix is read at `(k, o)`. -/
theorem widx_v10 (i : S8x14x200x176.Idx) (k : Fin 384) :
    Read.ridx_main_v6 (Read.idx_main_v10 i) k = ix2 k (i 1) :=
  funext fun a => Fin.ext (by
    match a with
    | ⟨0, _⟩ => rfl
    | ⟨1, _⟩ => rfl)

/-- Through the two broadcasts, the bias is read at `o`. -/
theorem bidx_v10 (i : S8x14x200x176.Idx) :
    Read.idx_main_v7 (Read.idx_main_v8 (Read.idx_main_v10 i)) = ix1 (i 1) :=
  funext fun a => Fin.ext (by
    match a with
    | ⟨0, _⟩ => rfl)

/-- The reference's second result is the head with weights `x3` and bias `x4`. -/
theorem val_main_v10_head (x0 : (⟨S8x384x200x176, .f32⟩ : BufTy).Contents (Elt Ideal))
    (x3 : (⟨S384x14, .f32⟩ : BufTy).Contents (Elt Ideal)) (x4 : (⟨S14, .f32⟩ : BufTy).Contents (Elt Ideal)) :
    Read.val_main_v10 (F := Ideal) x0 x3 x4 = Cert.Heads.headArr x0 x3 x4 := by
  funext i
  rw [Read.val_main_v10_apply, Read.val_main_v9_apply, Read.val_main_v6_apply, Read.val_main_v8_apply,
    Read.val_main_v7_apply]
  simp only [Read.val_main_v0_apply, xidx_v10, widx_v10, bidx_v10, Ideal.addf_def]
  rfl

/-! ## The third head: four output channels -/

/-- Through the outer permutation, the contraction's left index and the inner permutation, the feature map is read
    at `(b, k, h, w)`. -/
theorem xidx_v15 (i : S8x4x200x176.Idx) (k : Fin 384) :
    Read.idx_main_v0 (Read.lidx_main_v11 (Read.idx_main_v15 i) k) = ix4 (i 0) k (i 2) (i 3) :=
  funext fun a => Fin.ext (by
    match a with
    | ⟨0, _⟩ => rfl
    | ⟨1, _⟩ => rfl
    | ⟨2, _⟩ => rfl
    | ⟨3, _⟩ => rfl)

/-- The weight matrix is read at `(k, o)`. -/
theorem widx_v15 (i : S8x4x200x176.Idx) (k : Fin 384) :
    Read.ridx_main_v11 (Read.idx_main_v15 i) k = ix2 k (i 1) :=
  funext fun a => Fin.ext (by
    match a with
    | ⟨0, _⟩ => rfl
    | ⟨1, _⟩ => rfl)

/-- Through the two broadcasts, the bias is read at `o`. -/
theorem bidx_v15 (i : S8x4x200x176.Idx) :
    Read.idx_main_v12 (Read.idx_main_v13 (Read.idx_main_v15 i)) = ix1 (i 1) :=
  funext fun a => Fin.ext (by
    match a with
    | ⟨0, _⟩ => rfl)

/-- The reference's third result is the head with weights `x5` and bias `x6`. -/
theorem val_main_v15_head (x0 : (⟨S8x384x200x176, .f32⟩ : BufTy).Contents (Elt Ideal))
    (x5 : (⟨S384x4, .f32⟩ : BufTy).Contents (Elt Ideal)) (x6 : (⟨S4, .f32⟩ : BufTy).Contents (Elt Ideal)) :
    Read.val_main_v15 (F := Ideal) x0 x5 x6 = Cert.Heads.headArr x0 x5 x6 := by
  funext i
  rw [Read.val_main_v15_apply, Read.val_main_v14_apply, Read.val_main_v11_apply, Read.val_main_v13_apply,
    Read.val_main_v12_apply]
  simp only [Read.val_main_v0_apply, xidx_v15, widx_v15, bidx_v15, Ideal.addf_def]
  rfl

/-! ## The reference's run, with its results as heads -/

/-- From any memory with zero counters, every weakly fair execution of the reference terminates with its three results
    equal to the three heads of the arguments' launch contents — the first with weights and bias the arguments 1 and 2,
    the second 3 and 4, the third 5 and 6, all over the feature map, argument 0 — and the seven arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = Cert.Heads.headArr (m ((c.tc : Thread nD τ).loc main_arg0)) (m ((c.tc : Thread nD τ).loc main_arg1)) (m ((c.tc : Thread nD τ).loc main_arg2))
      ∧ r.2.mem ((c.tc : Thread nD τ).loc main_v10) = Cert.Heads.headArr (m ((c.tc : Thread nD τ).loc main_arg0)) (m ((c.tc : Thread nD τ).loc main_arg3)) (m ((c.tc : Thread nD τ).loc main_arg4))
      ∧ r.2.mem ((c.tc : Thread nD τ).loc main_v15) = Cert.Heads.headArr (m ((c.tc : Thread nD τ).loc main_arg0)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c).1.trans ((Read.val_main_v5_eq _ _ _).trans (val_main_v5_head _ _ _)),
        (h c).2.1.trans ((Read.val_main_v10_eq _ _ _).trans (val_main_v10_head _ _ _)),
        (h c).2.2.1.trans ((Read.val_main_v15_eq _ _ _).trans (val_main_v15_head _ _ _)),
        (h c).2.2.2⟩)
    (Value.run (F := Ideal) m ρ)

end Cert.ReferenceIdeal.RefValue

end
-- ==== Proof.lean ====
/-
  The certificate of a fused detection head against its reference: three 1×1 convolutions (2, 14 and 4 output channels)
  over a feature map `x : [8, 384, 200, 176]`, each `out[b, o, h, w] = (∑ k, x[b, k, h, w] · W[k, o]) + bias[o]`.

  The kernel program concatenates the three weight matrices along the output-channel axis, transposes and pads them to one
  matrix `[32, 384]` (rows 20 … 31 zero), does the same with the biases (a column `[32, 1]`), re-reads the feature map as
  `[8, 384, 35200]`, computes in ONE pipelined region `(∑ k, w[o, k] · x3[b, k, n]) + bias[o]` for all 32 rows, re-reads the
  result as `[8, 32, 200, 176]` and cuts out the channel ranges `0:2`, `2:16`, `16:20`. The reference moves the channel axis
  last, contracts it against each weight matrix, adds the bias and moves the channel axis back. On the extended reals
  both are the same sums: row `o + offset` of the fused matrix is column `o` of that head's weight matrix, flat pixel
  `176 h + w` is pixel `(h, w)`, and the two summands differ only in the order of the factors — multiplication of extended
  reals is commutative, so no finiteness of the inputs is used. The padded rows are never read.

  The three frames: the kernel's two programs run to the end, fault nowhere and leave their arguments as launched (the
  modules `FrameKernel`, `FrameKernelIdeal`); the reference's is its run with the results dropped. The idealization
  rewrote no operation, so there is nothing to preserve.
-/
import proofs.«142189_g47064251629653_cont_8to1c4_533_11_alg».proof.Defs
import proofs.«142189_g47064251629653_cont_8to1c4_533_11_alg».proof.Proof.Gen.Kernel
import proofs.«142189_g47064251629653_cont_8to1c4_533_11_alg».proof.Proof.Gen.KernelIdeal
import proofs.«142189_g47064251629653_cont_8to1c4_533_11_alg».proof.Proof.Gen.ReferenceIdeal
import proofs.«142189_g47064251629653_cont_8to1c4_533_11_alg».proof.Proof.Gen.Pre_finite_inputs
import proofs.«142189_g47064251629653_cont_8to1c4_533_11_alg».proof.Proof.FrameKernel
import proofs.«142189_g47064251629653_cont_8to1c4_533_11_alg».proof.Proof.FrameKernelIdeal
import proofs.«142189_g47064251629653_cont_8to1c4_533_11_alg».proof.Proof.BlocksKernelIdeal
import proofs.«142189_g47064251629653_cont_8to1c4_533_11_alg».proof.Proof.AroundKernelIdeal
import proofs.«142189_g47064251629653_cont_8to1c4_533_11_alg».proof.Proof.HeadsOfFused
import proofs.«142189_g47064251629653_cont_8to1c4_533_11_alg».proof.Proof.RefHeads
import Idealize.ShloMosaic.Adequacy
import Idealize.ShloMosaic.Init

noncomputable section

namespace Cert.Proof

open Idealize.ShloMosaic Idealize.ShloMosaic.TcCoe Idealize.SL.Sem

/-! ## The idealized kernel's results -/

section KernelResults

open Cert.KernelIdeal Cert.KernelIdeal.Gen Cert.KernelIdeal.Hand

variable (m : (ℓ : Loc nD τ sig) → Buf (Elt Ideal) ℓ) (ρ : Dev nD → PrngReg)

/-- After the host operations that follow the region, the first result is the classification head of the arguments:
    the output array is `fused` of the staged arrays (the blocks tile it), the staged arrays are the padded transposed
    concatenation, the bias column and the re-read feature map, and channels `0:2` of that are the head. -/
theorem result_cls (c : Dev nD) :
    Pipeline.afterTail₀ cfgs (regionData m) 0 (entry m) [hostOps1] c main_v9
      = Cert.Heads.headArr (m ((c : Thread nD τ).loc main_arg0)) (m ((c : Thread nD τ).loc main_arg1)) (m ((c : Thread nD τ).loc main_arg2)) := by
  refine (Cert.KernelIdeal.Around.result_cls m c).trans ?_
  rw [Cert.KernelIdeal.Blocks.output_array, Cert.KernelIdeal.Around.entry_x3, Cert.KernelIdeal.Around.entry_w, Cert.KernelIdeal.Around.entry_b]
  exact Cert.KernelIdeal.Heads.cls_eq _ _ _ _ _ _ _

/-- The second result is the regression head: channels `2:16`. -/
theorem result_reg (c : Dev nD) :
    Pipeline.afterTail₀ cfgs (regionData m) 0 (entry m) [hostOps1] c main_v10
      = Cert.Heads.headArr (m ((c : Thread nD τ).loc main_arg0)) (m ((c : Thread nD τ).loc main_arg3)) (m ((c : Thread nD τ).loc main_arg4)) := by
  refine (Cert.KernelIdeal.Around.result_reg m c).trans ?_
  rw [Cert.KernelIdeal.Blocks.output_array, Cert.KernelIdeal.Around.entry_x3, Cert.KernelIdeal.Around.entry_w, Cert.KernelIdeal.Around.entry_b]
  exact Cert.KernelIdeal.Heads.reg_eq _ _ _ _ _ _ _

/-- The third result is the direction head: channels `16:20`. -/
theorem result_dir (c : Dev nD) :
    Pipeline.afterTail₀ cfgs (regionData m) 0 (entry m) [hostOps1] c main_v11
      = Cert.Heads.headArr (m ((c : Thread nD τ).loc main_arg0)) (m ((c : Thread nD τ).loc main_arg5)) (m ((c : Thread nD τ).loc main_arg6)) := by
  refine (Cert.KernelIdeal.Around.result_dir m c).trans ?_
  rw [Cert.KernelIdeal.Blocks.output_array, Cert.KernelIdeal.Around.entry_x3, Cert.KernelIdeal.Around.entry_w, Cert.KernelIdeal.Around.entry_b]
  exact Cert.KernelIdeal.Heads.dir_eq _ _ _ _ _ _ _

/-- The idealized kernel's run, read: the three results at the three heads of the arguments, the arguments unchanged. -/
theorem kernel_run : θ_run (defs (F := Ideal)) (onTc (τ := τ) (main (F := Ideal))) ⟨m, fun _ => 0, ρ⟩ fun r => ∀ c : Dev nD,
      r.2.mem ((c.tc : Thread nD τ).loc main_v9) = Cert.Heads.headArr (m ((c.tc : Thread nD τ).loc main_arg0)) (m ((c.tc : Thread nD τ).loc main_arg1)) (m ((c.tc : Thread nD τ).loc main_arg2))
      ∧ r.2.mem ((c.tc : Thread nD τ).loc main_v10) = Cert.Heads.headArr (m ((c.tc : Thread nD τ).loc main_arg0)) (m ((c.tc : Thread nD τ).loc main_arg3)) (m ((c.tc : Thread nD τ).loc main_arg4))
      ∧ r.2.mem ((c.tc : Thread nD τ).loc main_v11) = Cert.Heads.headArr (m ((c.tc : Thread nD τ).loc main_arg0)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v9 (Pipeline.mem_restRefs_of main_v9 (by decide) (by decide))).trans (result_cls m c),
     ((h c).2 main_v10 (Pipeline.mem_restRefs_of main_v10 (by decide) (by decide))).trans (result_reg m c),
     ((h c).2 main_v11 (Pipeline.mem_restRefs_of main_v11 (by decide) (by decide))).trans (result_dir m c),
     ((h c).2 main_arg0 (Pipeline.mem_restRefs_of main_arg0 (by decide) (by decide))).trans (final_arg0 m (regionData m) c),
     ((h c).2 main_arg1 (Pipeline.mem_restRefs_of main_arg1 (by decide) (by decide))).trans (final_arg1 m (regionData m) c),
     ((h c).2 main_arg2 (Pipeline.mem_restRefs_of main_arg2 (by decide) (by decide))).trans (final_arg2 m (regionData m) c),
     ((h c).2 main_arg3 (Pipeline.mem_restRefs_of main_arg3 (by decide) (by decide))).trans (final_arg3 m (regionData m) c),
     ((h c).2 main_arg4 (Pipeline.mem_restRefs_of main_arg4 (by decide) (by decide))).trans (final_arg4 m (regionData m) c),
     ((h c).2 main_arg5 (Pipeline.mem_restRefs_of main_arg5 (by decide) (by decide))).trans (final_arg5 m (regionData m) c),
     ((h c).2 main_arg6 (Pipeline.mem_restRefs_of main_arg6 (by decide) (by decide))).trans (final_arg6 m (regionData m) c)⟩)
    (region_run m ρ)

end KernelResults

/-! ## The claims -/

theorem frame_k : Cert.frame_Kernel := fun m ρ _ => Cert.Kernel.Hand.frame m ρ
theorem frame_ki : Cert.frame_KernelIdeal := fun m ρ _ => Cert.KernelIdeal.Hand.frame m ρ
/-- The reference has no region: its frame is its run with the results dropped. -/
theorem frame_ri : Cert.frame_ReferenceIdeal := fun m ρ _ =>
  (θ_run Cert.ReferenceIdeal.defs _ _).mono (fun _ h c => (h c).2.2.2) (Cert.ReferenceIdeal.RefValue.ref_run m ρ)

/-- The idealization rewrote no operation. -/
theorem preserves : Cert.preserves_Kernel_KernelIdeal := trivial

/-- Both idealized programs, from memories agreeing on the arguments, end with the three heads of the arguments. -/
theorem algebraic : Cert.algebraic_KernelIdeal_ReferenceIdeal := by
  intro m ρ m' ρ' _ hagree
  refine ⟨_, _, _, kernel_run m ρ, ?_⟩
  refine (θ_run Cert.ReferenceIdeal.defs _ _).mono (fun _ h c => ?_) (Cert.ReferenceIdeal.RefValue.ref_run m' ρ')
  obtain ⟨a0, a1, a2, a3, a4, a5, a6⟩ := hagree c
  refine ⟨(h c).1.trans ?_, (h c).2.1.trans ?_, (h c).2.2.1.trans ?_, (h c).2.2.2⟩
  · rw [a0, a1, a2]
  · rw [a0, a3, a4]
  · rw [a0, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
